-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S3072x1024 : Shape := ⟨2, ![3072, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : IVec S4x2048x2048 1) (main_arg2 : FVec F S3072x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg2
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x2048x1024 : Shape := ⟨3, ![4, 2048, 1024]⟩
abbrev S4x2048x2048 : Shape := ⟨3, ![4, 2048, 2048]⟩
abbrev S3072x1024 : Shape := ⟨2, ![3072, 1024]⟩
abbrev S1024x1024 : Shape := ⟨2, ![1024, 1024]⟩
abbrev S1024x3072 : Shape := ⟨2, ![1024, 3072]⟩
abbrev S1x512x1024 : Shape := ⟨3, ![1, 512, 1024]⟩
abbrev S512x1024 : Shape := ⟨2, ![512, 1024]⟩
abbrev S512x3072 : Shape := ⟨2, ![512, 3072]⟩
abbrev S1x512x128 : Shape := ⟨3, ![1, 512, 128]⟩
abbrev S1x2048x128 : Shape := ⟨3, ![1, 2048, 128]⟩
abbrev S1x512x2048 : Shape := ⟨3, ![1, 512, 2048]⟩
abbrev S512x128 : Shape := ⟨2, ![512, 128]⟩
abbrev S2048x128 : Shape := ⟨2, ![2048, 128]⟩
abbrev S512x2048 : Shape := ⟨2, ![512, 2048]⟩
abbrev S512x64 : Shape := ⟨2, ![512, 64]⟩
abbrev S2048x64 : Shape := ⟨2, ![2048, 64]⟩
abbrev S64x2048 : Shape := ⟨2, ![64, 2048]⟩
abbrev S512 : Shape := ⟨1, ![512]⟩
abbrev S512x1 : Shape := ⟨2, ![512, 1]⟩
abbrev S8192x1024 : Shape := ⟨2, ![8192, 1024]⟩

abbrev nBuf : Space → Nat
  | .hbm => 16
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .i1⟩
  | .hbm, ⟨2, _⟩ => ⟨S3072x1024, .f32⟩
  | .hbm, ⟨3, _⟩ => ⟨S1024x1024, .f32⟩
  | .hbm, ⟨4, _⟩ => ⟨S1024x3072, .f32⟩
  | .hbm, ⟨5, _⟩ => ⟨S1024x3072, .bf16⟩
  | .hbm, ⟨6, _⟩ => ⟨S1024x1024, .f32⟩
  | .hbm, ⟨7, _⟩ => ⟨S1024x1024, .bf16⟩
  | .hbm, ⟨8, _⟩ => ⟨S4x2048x1024, .bf16⟩
  | .hbm, ⟨9, _⟩ => ⟨S4x2048x1024, .bf16⟩
  | .hbm, ⟨10, _⟩ => ⟨S4x2048x1024, .bf16⟩
  | .hbm, ⟨11, _⟩ => ⟨S4x2048x2048, .i32⟩
  | .hbm, ⟨12, _⟩ => ⟨S4x2048x1024, .bf16⟩
  | .hbm, ⟨13, _⟩ => ⟨S8192x1024, .bf16⟩
  | .hbm, ⟨14, _⟩ => ⟨S8192x1024, .f32⟩
  | .hbm, ⟨15, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x128, .bf16⟩
  | .local _ .vmem, ⟨10, _⟩ => ⟨S1x512x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x512x2048, .i32⟩
  | .local _ .vmem, ⟨16, _⟩ => ⟨S1x512x2048, .i32⟩
  | .local _ .vmem, ⟨17, _⟩ => ⟨S1x512x128, .bf16⟩
  | .local _ .vmem, ⟨18, _⟩ => ⟨S1x512x128, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .f32⟩
  | .local _ .vmem, ⟨23, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 4, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S512x3072_o0_0_S512x1024 : S512x3072.Slices ![0, 0] S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  slices_S512x3072_o0_1024_S512x1024 : S512x3072.Slices ![0, 1024] S512x1024
  slices_S512x3072_o0_2048_S512x1024 : S512x3072.Slices ![0, 2048] S512x1024
  natLt_1_32 : 1 < 32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  slices_S512x128_o0_0_S512x64 : S512x128.Slices ![0, 0] S512x64
  slices_S2048x128_o0_0_S2048x64 : S2048x128.Slices ![0, 0] S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x2048x1024.size a
  hwx0_2 : ∀ i : grid0.Coords, EltTy.bits .bf16 = 32 ∨ (Rect.block (s := S4x2048x1024) S1x512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S4x2048x1024.size a
  hwx0_3 : ∀ i : grid0.Coords, EltTy.bits .bf16 = 32 ∨ (Rect.block (s := S4x2048x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x2048x1024.size a
  hwx0_4 : ∀ i : grid0.Coords, EltTy.bits .bf16 = 32 ∨ (Rect.block (s := S4x2048x1024) S1x512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x1024.size a
  hwx1_0 : ∀ i : grid1.Coords, EltTy.bits .bf16 = 32 ∨ (Rect.block (s := S4x2048x1024) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x1024.size a
  hwx1_1 : ∀ i : grid1.Coords, EltTy.bits .bf16 = 32 ∨ (Rect.block (s := S4x2048x1024) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x1024.size a
  hwx1_2 : ∀ i : grid1.Coords, EltTy.bits .bf16 = 32 ∨ (Rect.block (s := S4x2048x1024) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x2048.size a ≤ S4x2048x2048.size a
  hwx1_3 : ∀ i : grid1.Coords, EltTy.bits .i32 = 32 ∨ (Rect.block (s := S4x2048x2048) S1x512x2048.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x128.size a ≤ S4x2048x1024.size a
  hwx1_4 : ∀ i : grid1.Coords, EltTy.bits .bf16 = 32 ∨ (Rect.block (s := S4x2048x1024) S1x512x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x1024.size a
  hwx2_2 : ∀ i : grid2.Coords, EltTy.bits .f32 = 32 ∨ (Rect.block (s := S8192x1024) S1024x1024.size (cc2_transform_2 i) (hinb2_2 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_2) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4_0) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v7) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S3072x1024 : Shape := ⟨2, ![3072, 1024]⟩
abbrev S1024x1024 : Shape := ⟨2, ![1024, 1024]⟩
abbrev S4x2048x3072 : Shape := ⟨3, ![4, 2048, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x1x2048x2048 : Shape := ⟨4, ![4, 1, 2048, 2048]⟩
abbrev S4x16x2048 : Shape := ⟨3, ![4, 16, 2048]⟩
abbrev S4x16x2048x1 : Shape := ⟨4, ![4, 16, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .i1⟩
  | .hbm, ⟨2, _⟩ => ⟨S3072x1024, .f32⟩
  | .hbm, ⟨3, _⟩ => ⟨S1024x1024, .f32⟩
  | .hbm, ⟨4, _⟩ => ⟨S4x2048x3072, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x16x64, .f32⟩
  | .hbm, ⟨9, _⟩ => ⟨S4x16x2048x64, .f32⟩
  | .hbm, ⟨10, _⟩ => ⟨S4x2048x16x64, .f32⟩
  | .hbm, ⟨11, _⟩ => ⟨S4x16x2048x64, .f32⟩
  | .hbm, ⟨12, _⟩ => ⟨S4x2048x16x64, .f32⟩
  | .hbm, ⟨13, _⟩ => ⟨S4x16x2048x64, .f32⟩
  | .hbm, ⟨14, _⟩ => ⟨S4x16x2048x2048, .f32⟩
  | .hbm, ⟨15, _⟩ => ⟨S_, .f32⟩
  | .hbm, ⟨16, _⟩ => ⟨S4x16x2048x2048, .f32⟩
  | .hbm, ⟨17, _⟩ => ⟨S4x16x2048x2048, .f32⟩
  | .hbm, ⟨18, _⟩ => ⟨S4x1x2048x2048, .i1⟩
  | .hbm, ⟨19, _⟩ => ⟨S_, .f32⟩
  | .hbm, ⟨20, _⟩ => ⟨S4x16x2048x2048, .i1⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048, .f32⟩
  | .hbm, ⟨25, _⟩ => ⟨S_, .f32⟩
  | .hbm, ⟨26, _⟩ => ⟨S4x16x2048, .f32⟩
  | .hbm, ⟨27, _⟩ => ⟨S4x16x2048, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S4x16x2048x1, .f32⟩
  | .hbm, ⟨35, _⟩ => ⟨S4x16x2048x2048, .f32⟩
  | .hbm, ⟨36, _⟩ => ⟨S4x16x2048x2048, .f32⟩
  | .hbm, ⟨37, _⟩ => ⟨S4x16x2048x64, .f32⟩
  | .hbm, ⟨38, _⟩ => ⟨S4x2048x16x64, .f32⟩
  | .hbm, ⟨39, _⟩ => ⟨S4x2048x1024, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S4x2048x2048_S4x1x2048x2048_0_2_3 : S4x2048x2048.BroadcastsInDim S4x1x2048x2048 (![0, 2, 3] : Fin 3 → Fin S4x1x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.AttnSpec.lean ====
/-
  Scaled dot-product self-attention with a fused projection, as one function of the four arguments, entry by entry
  on the extended reals.

  With x = iQ[b] (2048 rows of width 1024), the fused projection is P(b, s, e) = sum over d of x(s, d) * Wa(e, d)
  for e below 3072; columns 0..1023 are the queries, 1024..2047 the keys, 2048..3071 the values, and within each
  third the sixteen heads are consecutive groups of 64 columns. For the head h = e / 64 of an output column e, the
  score of query row s against key row k is the 64-term dot product of the query and key columns of that head,
  scaled; where the mask bit at (b, s, k) is set the score is replaced by the fill value. A row of scores S goes
  through the softmax written with the row's maximum M subtracted: exp(S k - M) / (sum over k' of exp(S k' - M)),
  and the head's output at column e is the sum over k of that weight times the value P(b, k, 2048 + e). The result
  is the output projection: sum over e of head(b, s, e) * Wo(o, e).

  The scaling is a parameter: one program multiplies the dot product by the literal 1/8, the other divides it by the
  literal 8. Those are one function on every extended real (a division by a nonzero real constant is the product with
  its reciprocal), which is the only law the equivalence needs; no finiteness is used.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The query column of head e / 64 at position d of the head: column (e / 64) * 64 + d of the fused projection. -/
def qcol (e : Fin 1024) (d : Fin 64) : Fin 3072 := ⟨e.val / 64 * 64 + d.val, by have := e.isLt; have := d.isLt; omega⟩
/-- The key column of the same head and position: 1024 further. -/
def kcol (e : Fin 1024) (d : Fin 64) : Fin 3072 := ⟨1024 + (e.val / 64 * 64 + d.val), by have := e.isLt; have := d.isLt; omega⟩
/-- The value column of output column e: 2048 further. -/
def vcol (e : Fin 1024) : Fin 3072 := ⟨2048 + e.val, by have := e.isLt; omega⟩

/-- Entry (b, s, e) of the fused projection: row (b, s) of iQ against row e of Wa. -/
def proj (iQ : (⟨3, ![4, 2048, 1024]⟩ : Shape).Idx → EReal) (Wa : (⟨2, ![3072, 1024]⟩ : Shape).Idx → EReal)
    (b : Fin 4) (s : Fin 2048) (e : Fin 3072) : EReal :=
  ∑ d : Fin 1024, iQ (ix3 b s d) * Wa (ix2 e d)

/-- One row of attention: the softmax of the scores S (with the fold of max from neg subtracted) against the
    values V. -/
def softmaxRow {n : ℕ} (neg : EReal) (S V : Fin n → EReal) : EReal :=
  ∑ k : Fin n, Ideal.div (Ideal.exp (S k - Finset.univ.fold max neg S))
      (∑ k' : Fin n, Ideal.exp (S k' - Finset.univ.fold max neg S)) * V k

/-- The masked, scaled score of query row s against key row k for the head of column e. -/
def score (scale : EReal → EReal) (fillv : EReal) (iQ : (⟨3, ![4, 2048, 1024]⟩ : Shape).Idx → EReal)
    (mask : (⟨3, ![4, 2048, 2048]⟩ : Shape).Idx → BitVec 1) (Wa : (⟨2, ![3072, 1024]⟩ : Shape).Idx → EReal)
    (b : Fin 4) (s : Fin 2048) (e : Fin 1024) (k : Fin 2048) : EReal :=
  Scalar.select (mask (ix3 b s k)) fillv (scale (∑ d : Fin 64, proj iQ Wa b s (qcol e d) * proj iQ Wa b k (kcol e d)))

/-- The attention output at (b, s, e). -/
def head (scale : EReal → EReal) (fillv neg : EReal) (iQ : (⟨3, ![4, 2048, 1024]⟩ : Shape).Idx → EReal)
    (mask : (⟨3, ![4, 2048, 2048]⟩ : Shape).Idx → BitVec 1) (Wa : (⟨2, ![3072, 1024]⟩ : Shape).Idx → EReal)
    (b : Fin 4) (s : Fin 2048) (e : Fin 1024) : EReal :=
  softmaxRow neg (score scale fillv iQ mask Wa b s e) (fun k => proj iQ Wa b k (vcol e))

/-- The result: the attention output projected by Wo. -/
def result (scale : EReal → EReal) (fillv neg : EReal) (iQ : (⟨3, ![4, 2048, 1024]⟩ : Shape).Idx → EReal)
    (mask : (⟨3, ![4, 2048, 2048]⟩ : Shape).Idx → BitVec 1) (Wa : (⟨2, ![3072, 1024]⟩ : Shape).Idx → EReal)
    (Wo : (⟨2, ![1024, 1024]⟩ : Shape).Idx → EReal) : (⟨3, ![4, 2048, 1024]⟩ : Shape).Idx → EReal :=
  fun i => ∑ e : Fin 1024, head scale fillv neg iQ mask Wa (i 0) (i 1) e * Wo (ix2 (i 2) e)

/-- The literal 8.0 denotes the real 8. -/
theorem ofBits_eight : Ideal.ofBits .f32 0x41000000#32 = ((8 : ℝ) : EReal) := by
  simp [Ideal.ofBits, Ideal.ieee, -EReal.coe_mul]; norm_num

/-- The literal 0.125 denotes the real 1/8. -/
theorem ofBits_eighth : Ideal.ofBits .f32 0x3E000000#32 = ((1 / 8 : ℝ) : EReal) := by
  simp [Ideal.ofBits, Ideal.ieee, -EReal.coe_mul]; norm_num

/-- Multiplying by the literal 1/8 is dividing by the literal 8, on every extended real. -/
theorem mul_eighth_eq_div_eight (x : EReal) :
    x * Ideal.ofBits .f32 0x3E000000#32 = Ideal.div x (Ideal.ofBits .f32 0x41000000#32) := by
  rw [ofBits_eight, ofBits_eighth, Ideal.div_coe (by norm_num : (8 : ℝ) ≠ 0)]

/-- So the two scalings give one result. -/
theorem result_scale_eq (fillv neg : EReal) (iQ : (⟨3, ![4, 2048, 1024]⟩ : Shape).Idx → EReal)
    (mask : (⟨3, ![4, 2048, 2048]⟩ : Shape).Idx → BitVec 1) (Wa : (⟨2, ![3072, 1024]⟩ : Shape).Idx → EReal)
    (Wo : (⟨2, ![1024, 1024]⟩ : Shape).Idx → EReal) :
    result (fun x => x * Ideal.ofBits .f32 0x3E000000#32) fillv neg iQ mask Wa Wo
      = result (fun x => Ideal.div x (Ideal.ofBits .f32 0x41000000#32)) fillv neg iQ mask Wa Wo := by
  have h : (fun x : EReal => x * Ideal.ofBits .f32 0x3E000000#32)
      = fun x => Ideal.div x (Ideal.ofBits .f32 0x41000000#32) := funext mul_eighth_eq_div_eight
  rw [h]

end Cert.Attn

end
-- ==== Proof.KernelRun.lean ====
/-
  The idealized kernel's run with its RESULT named.

  The program is three pipelined regions among four stretches of host operations. Its run is the launch over
  those seven segments; after the last segment every unscoped buffer of a core holds the fold of the segments'
  effects from the launch memory: a stretch applies its operations, a region replaces its window arrays by what
  the write-backs of all grid points leave. The frame claim keeps from that fold only the four arguments; here
  the result buffer is kept as well, still as the fold read at that buffer. The later modules open the fold.
-/
import proofs.«155274_j68135361184458_2_alg».proof.Proof.Gen.KernelIdeal.Frame

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the
    seven-segment fold read at that buffer, and the four argument arrays end as launched. -/
theorem run_fold : θ_run defs (onTc (τ := τ) (main (F := F))) ⟨m, fun _ => 0, ρ⟩ (fun r => ∀ c : Dev nD,
      r.2.mem ((c.tc : Thread nD τ).loc main_v9) = W7 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v9 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.Attn

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.ProjValue.lean ====
/-
  The fused projection region: what its three output arrays hold after all sixteen grid points.

  Point (b, si) loads rows 512 si .. 512 si + 511 of batch b of the input x (as a 1 x 512 x 1024 block) and the whole
  1024 x 3072 matrix w, forms the 512 x 3072 product into the zero accumulator, and stores its three column thirds
  into the same rows of the three outputs. Entry by entry the product is the sum over the contraction index; a
  column third is a slice at column offset 0, 1024 or 2048; the casts between 1 x 512 x 1024 and 512 x 1024 only drop
  or add the unit axis. So output number n holds, at (b, s, e), the sum over d of x(b, s, d) * w(d, 1024 n + e), and
  the sixteen blocks of 512 rows cover the 4 x 2048 rows.
-/
import proofs.«155274_j68135361184458_2_alg».proof.Proof.Gen.KernelIdeal.Frame
import proofs.«155274_j68135361184458_2_alg».proof.Proof.LibMatmulRows
import Idealize.ShloMosaic.Lib.Pipeline.Value
import Idealize.ShloMosaic.Lib.ValueIdx
import Idealize.ShloMosaic.PureOps.Ideal.Laws

set_option maxRecDepth 16384

noncomputable section

namespace Cert.KernelIdeal.Attn

open Cert.KernelIdeal Cert.KernelIdeal.Gen
open Idealize.ShloMosaic Idealize.ShloMosaic.TcCoe Idealize.ShloMosaic.ValueIdx Idealize.SL.Sem
open Idealize.ShloMosaic.Pipeline (Dat Cfg Window)

open Idealize.ShloMosaic.MatmulRows

/-- The free axes of the 512 x 1024 by 1024 x 3072 product's dimension numbers. -/
theorem dotP_lhs0 (i : S512x3072.Idx) (q : dot_S512x1024_S1024x3072_S512x3072_1_0_0_1_n_n.contr.Idx) : (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl
theorem dotP_rhs1 (i : S512x3072.Idx) (q : dot_S512x1024_S1024x3072_S512x3072_1_0_0_1_n_n.contr.Idx) : (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- A column third of the block product, recast to the block's shape, at an entry: the sum over the contraction
    index of the input row against the weight's column off + e. -/
theorem proj_piece (off : ℕ) (hoff : off + 1024 ≤ 3072) (h : S512x3072.Slices ![0, off] S512x1024)
    (hc : S512x1024.ShapeCasts S1x512x1024)
    (x0 : Vec Ideal S1x512x1024 .f32) (x1 : Vec Ideal S1024x3072 .bf16) (r : Fin 512) (e : Fin 1024) :
    shapeCast S1x512x1024 (truncf .bf16 (extractStridedSlice S512x1024 ![0, off] (k0_pay1 x0 x1) h) bitsLt_bf16_f32) hc
        (ix3 (0 : Fin 1) r e)
      = ∑ k : Fin 1024, x0 (ix3 (0 : Fin 1) r k) * x1 (ix2 k ⟨off + e.val, by have := e.isLt; omega⟩) := by
  have he : e.val < 1024 := e.isLt
  have hr : r.val < 512 := r.isLt
  rw [shapeCast_apply _ hc (ix3 (0 : Fin 1) r e) (ix2 r e) (by
    rw [Shape.rowMajor_val_two, Shape.rowMajor_val_three]
    show r.val * 1024 + e.val = ((0 : ℕ) * 512 + r.val) * 1024 + e.val
    omega)]
  rw [truncf_apply]
  rw [extractStridedSlice_apply ![0, off] _ h (ix2 r e) (ix2 r (⟨off + e.val, by omega⟩ : Fin 3072)) (fun a => by
    match a with
    | ⟨0, _⟩ => show r.val = 0 + r.val; omega
    | ⟨1, _⟩ => rfl)]
  unfold k0_pay1
  refine matmul_zero_rows dot_S512x1024_S1024x3072_S512x3072_1_0_0_1_n_n none rfl rfl rfl rfl dotP_lhs0 dotP_rhs1 _ _ _ _ _ (fun k => ?_) (fun k => ?_)
  · show shapeCast S512x1024 x0 shapeCasts_S1x512x1024_S512x1024 (ix2 r k) = x0 (ix3 (0 : Fin 1) r k)
    exact shapeCast_apply x0 _ (ix2 r k) (ix3 (0 : Fin 1) r k) (by
      rw [Shape.rowMajor_val_two, Shape.rowMajor_val_three]
      show ((0 : ℕ) * 512 + r.val) * 1024 + k.val = r.val * 1024 + k.val
      omega)
  · show shapeCast S1024x3072 x1 shapeCasts_S1024x3072_S1024x3072 (ix2 k (⟨off + e.val, by omega⟩ : Fin 3072)) = _
    rw [shapeCast_self]

/-- A third of the projection as one function of the input array and the weight: columns off .. off + 1023. -/
def projArr (off : ℕ) (hoff : off + 1024 ≤ 3072) (x : S4x2048x1024.Idx → EReal) (w : S1024x3072.Idx → EReal) :
    S4x2048x1024.Idx → EReal :=
  fun i => ∑ k : Fin 1024, x (ix3 (i 0) (i 1) k)
    * w (ix2 k (⟨off + (i 2).val, by have h2 : (i 2).val < 1024 := (i 2).isLt; omega⟩ : Fin 3072))

theorem proj_zeros3 : (![0, 0, 0] : Fin 3 → Nat) = fun _ => 0 := funext fun a => by fin_cases a <;> rfl
theorem proj_zeros2 : (![0, 0] : Fin 2 → Nat) = fun _ => 0 := funext fun a => by fin_cases a <;> rfl

variable (V : (c : Dev nD) → (b : Ref sig .tc) → Buf (Elt Ideal) ((c : Thread nD τ).loc b))

/-! ## Output window 2: columns 0 .. 1023 of the fused projection -/

/-- The window's payload at an entry of the block. -/
theorem q_payload (x0 : Vec Ideal S1x512x1024 .f32) (x1 : Vec Ideal S1024x3072 .bf16) (r : Fin 512) (e : Fin 1024) :
    k0_pay2 x0 x1 (ix3 (0 : Fin 1) r e)
      = ∑ k : Fin 1024, x0 (ix3 (0 : Fin 1) r k) * x1 (ix2 k ⟨0 + e.val, by have := e.isLt; omega⟩) := by
  unfold k0_pay2
  exact proj_piece 0 (by omega) _ _ x0 x1 r e

/-- The index maps over the sixteen points: the input rows move with the output block, the weight never moves. -/
theorem q_index : ∀ t : Fin cfg0.N, win0_0.index t (0 : Fin 3) = win0_2.index t (0 : Fin 3)
    ∧ win0_0.index t (1 : Fin 3) = win0_2.index t (1 : Fin 3) ∧ win0_0.index t (2 : Fin 3) = 0
    ∧ win0_1.index t (0 : Fin 2) = 0 ∧ win0_1.index t (1 : Fin 2) = 0 ∧ win0_2.index t (2 : Fin 3) = 0 :=
  (by decide +kernel : ∀ t : Fin grid0.N, _)

/-- Every (batch, row block) is some point's. -/
theorem q_onto : ∀ (q0 : Fin 4) (q1 : Fin 4), ∃ t : Fin cfg0.N, win0_2.index t = ![q0.val, q1.val, 0] :=
  (by decide +kernel : ∀ (q0 : Fin 4) (q1 : Fin 4), ∃ t : Fin grid0.N, win0_2.index t = ![q0.val, q1.val, 0])

/-- What point t writes back is block t of the projection of the arrays as the region finds them. -/
theorem q_flushed (c : Dev nD) (t : Fin cfg0.N) :
    (dat0 (F := Ideal) V c).flushed 2 t
      = ((cfg0.win 2).blk t).view.read (Elt Ideal)
          (projArr 0 (by omega) (V c (Pipeline.arrRef spec0 0)) (V c (Pipeline.arrRef spec0 1))) := by
  show (cfg0.win 2).cut (grid0.coords t) ((dat0 V c).after 2 t) = _
  rw [after0_2]
  unfold out0_2
  rw [View.canon_unit_zero proj_zeros3]
  simp only [View.ld_unit_zero (S := S1x512x1024) proj_zeros3, View.ld_unit_zero (S := S1024x3072) proj_zeros2]
  funext j
  obtain ⟨u, r, e, rfl⟩ : ∃ (u : Fin 1) (r : Fin 512) (e : Fin 1024), j = ix3 u r e := ⟨j 0, j 1, j 2, eq_ix3 j⟩
  obtain rfl : u = 0 := Fin.ext (by omega)
  show k0_pay2 (iblk0 V c 0 t) (iblk0 V c 1 t) (ix3 (0 : Fin 1) r e)
    = projArr 0 (by omega) (V c (Pipeline.arrRef spec0 0)) (V c (Pipeline.arrRef spec0 1))
        (((cfg0.win 2).blk t).view.emb (ix3 (0 : Fin 1) r e))
  refine (q_payload _ _ r e).trans ?_
  obtain ⟨e0, e1, e2, e3, e4, e5⟩ := q_index t
  refine Finset.sum_congr rfl fun k _ => ?_
  have hr : r.val < 512 := r.isLt
  have he : e.val < 1024 := e.isLt
  have h0 : ((cfg0.win 0).blk t).view.emb (ix3 (0 : Fin 1) r k)
      = ix3 ((((cfg0.win 2).blk t).view.emb (ix3 (0 : Fin 1) r e)) 0) ((((cfg0.win 2).blk t).view.emb (ix3 (0 : Fin 1) r e)) 1) k := by
    funext a; apply Fin.ext
    match a with
    | ⟨0, _⟩ => show win0_0.index t (0 : Fin 3) * 1 + 1 * 0 = win0_2.index t (0 : Fin 3) * 1 + 1 * 0; omega
    | ⟨1, _⟩ => show win0_0.index t (1 : Fin 3) * 512 + 1 * r.val = win0_2.index t (1 : Fin 3) * 512 + 1 * r.val; omega
    | ⟨2, _⟩ => show win0_0.index t (2 : Fin 3) * 1024 + 1 * k.val = k.val; omega
  have h1 : ((cfg0.win 1).blk t).view.emb (ix2 k (⟨0 + e.val, by omega⟩ : Fin 3072))
      = ix2 k (⟨0 + ((((cfg0.win 2).blk t).view.emb (ix3 (0 : Fin 1) r e)) 2).val,
          by have hE : ((((cfg0.win 2).blk t).view.emb (ix3 (0 : Fin 1) r e)) 2).val = win0_2.index t (2 : Fin 3) * 1024 + 1 * e.val := rfl
             omega⟩ : Fin 3072) := by
    funext a; apply Fin.ext
    match a with
    | ⟨0, _⟩ => show win0_1.index t (0 : Fin 2) * 1024 + 1 * k.val = k.val; omega
    | ⟨1, _⟩ => show win0_1.index t (1 : Fin 2) * 3072 + 1 * (0 + e.val) = 0 + (win0_2.index t (2 : Fin 3) * 1024 + 1 * e.val); omega
  exact congrArg₂ (fun a b : EReal => a * b)
    (congrArg (V c (Pipeline.arrRef spec0 0) : S4x2048x1024.Idx → EReal) h0)
    (congrArg (V c (Pipeline.arrRef spec0 1) : S1024x3072.Idx → EReal) h1)

/-- An index lies in point t's block iff each coordinate lies in the block's range. -/
theorem q_mem_blk (t : Fin cfg0.N) (i : S4x2048x1024.Idx) :
    i ∈ ((cfg0.win 2).blk t).view.set ↔ ∀ a : Fin 3, win0_2.index t a * S1x512x1024.size a ≤ (i a).val
      ∧ (i a).val < win0_2.index t a * S1x512x1024.size a + S1x512x1024.size a := by
  show i ∈ ((View.whole main_v4_0).slice (win0_2.rect t)).set ↔ _
  rw [View.set_slice_whole, Rect.mem_set_unit]
  exact Iff.rfl

/-- Entry (b, s, e) lies in the block of the point with batch b and row block s / 512. -/
theorem q_cover (i : S4x2048x1024.Idx) :
    ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 1024 := (i 2).isLt
  obtain ⟨t, ht⟩ := q_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [q_mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1024 ≤ (i 2).val ∧ (i 2).val < win0_2.index t (2 : Fin 3) * 1024 + 1024; omega

/-- The window's array after the region. -/
theorem q_final (c : Dev nD) :
    (dat0 (F := Ideal) V c).arrAt 2 cfg0.N
      = projArr 0 (by omega) (V c (Pipeline.arrRef spec0 0)) (V c (Pipeline.arrRef spec0 1)) :=
  (dat0 V c).arrAt_eq_of_cover 2 _ (fun t _ => q_flushed V c t) q_cover

/-! ## Output window 3: columns 1024 .. 2047 of the fused projection -/

/-- The window's payload at an entry of the block. -/
theorem k_payload (x0 : Vec Ideal S1x512x1024 .f32) (x1 : Vec Ideal S1024x3072 .bf16) (r : Fin 512) (e : Fin 1024) :
    k0_pay3 x0 x1 (ix3 (0 : Fin 1) r e)
      = ∑ k : Fin 1024, x0 (ix3 (0 : Fin 1) r k) * x1 (ix2 k ⟨1024 + e.val, by have := e.isLt; omega⟩) := by
  unfold k0_pay3
  exact proj_piece 1024 (by omega) _ _ x0 x1 r e

/-- The index maps over the sixteen points: the input rows move with the output block, the weight never moves. -/
theorem k_index : ∀ t : Fin cfg0.N, win0_0.index t (0 : Fin 3) = win0_3.index t (0 : Fin 3)
    ∧ win0_0.index t (1 : Fin 3) = win0_3.index t (1 : Fin 3) ∧ win0_0.index t (2 : Fin 3) = 0
    ∧ win0_1.index t (0 : Fin 2) = 0 ∧ win0_1.index t (1 : Fin 2) = 0 ∧ win0_3.index t (2 : Fin 3) = 0 :=
  (by decide +kernel : ∀ t : Fin grid0.N, _)

/-- Every (batch, row block) is some point's. -/
theorem k_onto : ∀ (q0 : Fin 4) (q1 : Fin 4), ∃ t : Fin cfg0.N, win0_3.index t = ![q0.val, q1.val, 0] :=
  (by decide +kernel : ∀ (q0 : Fin 4) (q1 : Fin 4), ∃ t : Fin grid0.N, win0_3.index t = ![q0.val, q1.val, 0])

/-- What point t writes back is block t of the projection of the arrays as the region finds them. -/
theorem k_flushed (c : Dev nD) (t : Fin cfg0.N) :
    (dat0 (F := Ideal) V c).flushed 3 t
      = ((cfg0.win 3).blk t).view.read (Elt Ideal)
          (projArr 1024 (by omega) (V c (Pipeline.arrRef spec0 0)) (V c (Pipeline.arrRef spec0 1))) := by
  show (cfg0.win 3).cut (grid0.coords t) ((dat0 V c).after 3 t) = _
  rw [after0_3]
  unfold out0_3
  rw [View.canon_unit_zero proj_zeros3]
  simp only [View.ld_unit_zero (S := S1x512x1024) proj_zeros3, View.ld_unit_zero (S := S1024x3072) proj_zeros2]
  funext j
  obtain ⟨u, r, e, rfl⟩ : ∃ (u : Fin 1) (r : Fin 512) (e : Fin 1024), j = ix3 u r e := ⟨j 0, j 1, j 2, eq_ix3 j⟩
  obtain rfl : u = 0 := Fin.ext (by omega)
  show k0_pay3 (iblk0 V c 0 t) (iblk0 V c 1 t) (ix3 (0 : Fin 1) r e)
    = projArr 1024 (by omega) (V c (Pipeline.arrRef spec0 0)) (V c (Pipeline.arrRef spec0 1))
        (((cfg0.win 3).blk t).view.emb (ix3 (0 : Fin 1) r e))
  refine (k_payload _ _ r e).trans ?_
  obtain ⟨e0, e1, e2, e3, e4, e5⟩ := k_index t
  refine Finset.sum_congr rfl fun k _ => ?_
  have hr : r.val < 512 := r.isLt
  have he : e.val < 1024 := e.isLt
  have h0 : ((cfg0.win 0).blk t).view.emb (ix3 (0 : Fin 1) r k)
      = ix3 ((((cfg0.win 3).blk t).view.emb (ix3 (0 : Fin 1) r e)) 0) ((((cfg0.win 3).blk t).view.emb (ix3 (0 : Fin 1) r e)) 1) k := by
    funext a; apply Fin.ext
    match a with
    | ⟨0, _⟩ => show win0_0.index t (0 : Fin 3) * 1 + 1 * 0 = win0_3.index t (0 : Fin 3) * 1 + 1 * 0; omega
    | ⟨1, _⟩ => show win0_0.index t (1 : Fin 3) * 512 + 1 * r.val = win0_3.index t (1 : Fin 3) * 512 + 1 * r.val; omega
    | ⟨2, _⟩ => show win0_0.index t (2 : Fin 3) * 1024 + 1 * k.val = k.val; omega
  have h1 : ((cfg0.win 1).blk t).view.emb (ix2 k (⟨1024 + e.val, by omega⟩ : Fin 3072))
      = ix2 k (⟨1024 + ((((cfg0.win 3).blk t).view.emb (ix3 (0 : Fin 1) r e)) 2).val,
          by have hE : ((((cfg0.win 3).blk t).view.emb (ix3 (0 : Fin 1) r e)) 2).val = win0_3.index t (2 : Fin 3) * 1024 + 1 * e.val := rfl
             omega⟩ : Fin 3072) := by
    funext a; apply Fin.ext
    match a with
    | ⟨0, _⟩ => show win0_1.index t (0 : Fin 2) * 1024 + 1 * k.val = k.val; omega
    | ⟨1, _⟩ => show win0_1.index t (1 : Fin 2) * 3072 + 1 * (1024 + e.val) = 1024 + (win0_3.index t (2 : Fin 3) * 1024 + 1 * e.val); omega
  exact congrArg₂ (fun a b : EReal => a * b)
    (congrArg (V c (Pipeline.arrRef spec0 0) : S4x2048x1024.Idx → EReal) h0)
    (congrArg (V c (Pipeline.arrRef spec0 1) : S1024x3072.Idx → EReal) h1)

/-- An index lies in point t's block iff each coordinate lies in the block's range. -/
theorem k_mem_blk (t : Fin cfg0.N) (i : S4x2048x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v4_1).slice (win0_3.rect t)).set ↔ _
  rw [View.set_slice_whole, Rect.mem_set_unit]
  exact Iff.rfl

/-- Entry (b, s, e) lies in the block of the point with batch b and row block s / 512. -/
theorem k_cover (i : S4x2048x1024.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 1024 := (i 2).isLt
  obtain ⟨t, ht⟩ := k_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [k_mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- The window's array after the region. -/
theorem k_final (c : Dev nD) :
    (dat0 (F := Ideal) V c).arrAt 3 cfg0.N
      = projArr 1024 (by omega) (V c (Pipeline.arrRef spec0 0)) (V c (Pipeline.arrRef spec0 1)) :=
  (dat0 V c).arrAt_eq_of_cover 3 _ (fun t _ => k_flushed V c t) k_cover

/-! ## Output window 4: columns 2048 .. 3071 of the fused projection -/

/-- The window's payload at an entry of the block. -/
theorem v_payload (x0 : Vec Ideal S1x512x1024 .f32) (x1 : Vec Ideal S1024x3072 .bf16) (r : Fin 512) (e : Fin 1024) :
    k0_pay4 x0 x1 (ix3 (0 : Fin 1) r e)
      = ∑ k : Fin 1024, x0 (ix3 (0 : Fin 1) r k) * x1 (ix2 k ⟨2048 + e.val, by have := e.isLt; omega⟩) := by
  unfold k0_pay4
  exact proj_piece 2048 (by omega) _ _ x0 x1 r e

/-- The index maps over the sixteen points: the input rows move with the output block, the weight never moves. -/
theorem v_index : ∀ t : Fin cfg0.N, win0_0.index t (0 : Fin 3) = win0_4.index t (0 : Fin 3)
    ∧ win0_0.index t (1 : Fin 3) = win0_4.index t (1 : Fin 3) ∧ win0_0.index t (2 : Fin 3) = 0
    ∧ win0_1.index t (0 : Fin 2) = 0 ∧ win0_1.index t (1 : Fin 2) = 0 ∧ win0_4.index t (2 : Fin 3) = 0 :=
  (by decide +kernel : ∀ t : Fin grid0.N, _)

/-- Every (batch, row block) is some point's. -/
theorem v_onto : ∀ (q0 : Fin 4) (q1 : Fin 4), ∃ t : Fin cfg0.N, win0_4.index t = ![q0.val, q1.val, 0] :=
  (by decide +kernel : ∀ (q0 : Fin 4) (q1 : Fin 4), ∃ t : Fin grid0.N, win0_4.index t = ![q0.val, q1.val, 0])

/-- What point t writes back is block t of the projection of the arrays as the region finds them. -/
theorem v_flushed (c : Dev nD) (t : Fin cfg0.N) :
    (dat0 (F := Ideal) V c).flushed 4 t
      = ((cfg0.win 4).blk t).view.read (Elt Ideal)
          (projArr 2048 (by omega) (V c (Pipeline.arrRef spec0 0)) (V c (Pipeline.arrRef spec0 1))) := by
  show (cfg0.win 4).cut (grid0.coords t) ((dat0 V c).after 4 t) = _
  rw [after0_4]
  unfold out0_4
  rw [View.canon_unit_zero proj_zeros3]
  simp only [View.ld_unit_zero (S := S1x512x1024) proj_zeros3, View.ld_unit_zero (S := S1024x3072) proj_zeros2]
  funext j
  obtain ⟨u, r, e, rfl⟩ : ∃ (u : Fin 1) (r : Fin 512) (e : Fin 1024), j = ix3 u r e := ⟨j 0, j 1, j 2, eq_ix3 j⟩
  obtain rfl : u = 0 := Fin.ext (by omega)
  show k0_pay4 (iblk0 V c 0 t) (iblk0 V c 1 t) (ix3 (0 : Fin 1) r e)
    = projArr 2048 (by omega) (V c (Pipeline.arrRef spec0 0)) (V c (Pipeline.arrRef spec0 1))
        (((cfg0.win 4).blk t).view.emb (ix3 (0 : Fin 1) r e))
  refine (v_payload _ _ r e).trans ?_
  obtain ⟨e0, e1, e2, e3, e4, e5⟩ := v_index t
  refine Finset.sum_congr rfl fun k _ => ?_
  have hr : r.val < 512 := r.isLt
  have he : e.val < 1024 := e.isLt
  have h0 : ((cfg0.win 0).blk t).view.emb (ix3 (0 : Fin 1) r k)
      = ix3 ((((cfg0.win 4).blk t).view.emb (ix3 (0 : Fin 1) r e)) 0) ((((cfg0.win 4).blk t).view.emb (ix3 (0 : Fin 1) r e)) 1) k := by
    funext a; apply Fin.ext
    match a with
    | ⟨0, _⟩ => show win0_0.index t (0 : Fin 3) * 1 + 1 * 0 = win0_4.index t (0 : Fin 3) * 1 + 1 * 0; omega
    | ⟨1, _⟩ => show win0_0.index t (1 : Fin 3) * 512 + 1 * r.val = win0_4.index t (1 : Fin 3) * 512 + 1 * r.val; omega
    | ⟨2, _⟩ => show win0_0.index t (2 : Fin 3) * 1024 + 1 * k.val = k.val; omega
  have h1 : ((cfg0.win 1).blk t).view.emb (ix2 k (⟨2048 + e.val, by omega⟩ : Fin 3072))
      = ix2 k (⟨2048 + ((((cfg0.win 4).blk t).view.emb (ix3 (0 : Fin 1) r e)) 2).val,
          by have hE : ((((cfg0.win 4).blk t).view.emb (ix3 (0 : Fin 1) r e)) 2).val = win0_4.index t (2 : Fin 3) * 1024 + 1 * e.val := rfl
             omega⟩ : Fin 3072) := by
    funext a; apply Fin.ext
    match a with
    | ⟨0, _⟩ => show win0_1.index t (0 : Fin 2) * 1024 + 1 * k.val = k.val; omega
    | ⟨1, _⟩ => show win0_1.index t (1 : Fin 2) * 3072 + 1 * (2048 + e.val) = 2048 + (win0_4.index t (2 : Fin 3) * 1024 + 1 * e.val); omega
  exact congrArg₂ (fun a b : EReal => a * b)
    (congrArg (V c (Pipeline.arrRef spec0 0) : S4x2048x1024.Idx → EReal) h0)
    (congrArg (V c (Pipeline.arrRef spec0 1) : S1024x3072.Idx → EReal) h1)

/-- An index lies in point t's block iff each coordinate lies in the block's range. -/
theorem v_mem_blk (t : Fin cfg0.N) (i : S4x2048x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v4_2).slice (win0_4.rect t)).set ↔ _
  rw [View.set_slice_whole, Rect.mem_set_unit]
  exact Iff.rfl

/-- Entry (b, s, e) lies in the block of the point with batch b and row block s / 512. -/
theorem v_cover (i : S4x2048x1024.Idx) :
    ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  obtain ⟨t, ht⟩ := v_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [v_mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- The window's array after the region. -/
theorem v_final (c : Dev nD) :
    (dat0 (F := Ideal) V c).arrAt 4 cfg0.N
      = projArr 2048 (by omega) (V c (Pipeline.arrRef spec0 0)) (V c (Pipeline.arrRef spec0 1)) :=
  (dat0 V c).arrAt_eq_of_cover 4 _ (fun t _ => v_flushed V c t) v_cover

end Cert.KernelIdeal.Attn

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.LibRowMax.lean ====
/-
  A row's maximum read at an index, at the ideal instance.

  For an a by b array, a kernel's reduction with maximum along axis 1 holds, at row i, the fold of max over the
  column coordinate j of the entries at (i, j), started from the accumulator's value. The fold is over the whole
  finite type of columns, in no particular order.
-/
import Idealize.ShloMosaic.PureOps.Ideal.Laws
import Idealize.ShloMosaic.Lib.ValueIdx

noncomputable section

namespace Idealize.ShloMosaic.RowMax

open Idealize.ShloMosaic Idealize.ShloMosaic.ValueIdx

variable {a b : ℕ} {φ : FTy}

/-- The index a reduction along axis 1 puts back: row i, column j. -/
theorem lift_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

/-- A row's maximum, from the accumulator's value. -/
theorem row_max_apply (v : FVec Ideal (⟨2, ![a, b]⟩ : Shape) φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ v acc h hφ hacc (ix1 i)
      = (Finset.univ : Finset (Fin b)).fold max (Ideal.ofBits φ acc) (fun j => v (ix2 i j)) := by
  rw [Ideal.multiReduction_maximumf_single]
  have e : (v ∘ h.lift (ix1 i)) = fun j : Fin b => v (ix2 i j) := funext fun j => congrArg v (lift_row h i j)
  rw [e]
  rfl

end Idealize.ShloMosaic.RowMax

end
-- ==== Proof.AttnBody.lean ====
/-
  The attention body's arithmetic for one head, read at an entry.

  The body treats the two heads of its 128-column block alike: from the head's 512 x 2048 raw scores it scales,
  replaces the masked entries by the fill value, subtracts each row's maximum, exponentiates, divides by the row's
  sum, and multiplies the 512 x 2048 weights into the head's 2048 x 64 values. Here that computation is named once,
  as a function of the mask bits, the raw scores, the scale splat and the values, and read at (r, d): the row's
  maximum and sum are per-row quantities spread back over the row, the product is a sum over the 2048 keys; the
  result is the softmax row of the specification.
-/
import proofs.«155274_j68135361184458_2_alg».proof.Proof.Gen.KernelIdeal.Skeleton
import proofs.«155274_j68135361184458_2_alg».proof.Proof.LibMatmulRows
import proofs.«155274_j68135361184458_2_alg».proof.Proof.LibKeepdims
import proofs.«155274_j68135361184458_2_alg».proof.Proof.LibRowMax
import proofs.«155274_j68135361184458_2_alg».proof.Proof.AttnSpec
import Idealize.ShloMosaic.Lib.Pipeline.Value
import Idealize.ShloMosaic.Lib.ValueIdx
import Idealize.ShloMosaic.PureOps.Ideal.Laws

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.ShloMosaic.MatmulRows Idealize.ShloMosaic.Keepdims Idealize.ShloMosaic.RowMax

theorem exp_apply {s : Shape} {φ : FTy} (v : FVec Ideal s φ) (i : s.Idx) : exp v i = Ideal.exp (v i) := rfl

/-- A 1 x a x b array cast to a x b reads, at (r, c), the operand at (0, r, c). -/
theorem dropUnit3_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_two, Shape.rowMajor_val_three]
    show ((0 : ℕ) * a + r.val) * b + c.val = r.val * b + c.val
    rw [Nat.zero_mul, Nat.zero_add])

/-- An a x b array cast to 1 x a x b reads, at (0, r, c), the operand at (r, c). -/
theorem addUnit3_apply {α : Type} {a b : ℕ} (x : (⟨2, ![a, b]⟩ : Shape).Idx → α)
    (h : (⟨2, ![a, b]⟩ : Shape).ShapeCasts ⟨3, ![1, a, b]⟩) (r : Fin a) (c : Fin b) :
    shapeCast ⟨3, ![1, a, b]⟩ x h (ix3 (0 : Fin 1) r c) = x (ix2 r c) :=
  shapeCast_apply x h _ _ (by
    rw [Shape.rowMajor_val_two, Shape.rowMajor_val_three]
    show r.val * b + c.val = ((0 : ℕ) * a + r.val) * b + c.val
    rw [Nat.zero_mul, Nat.zero_add])

/-- A row's maximum spread back over the row. -/
theorem rowmax_spread (x : FVec Ideal S512x2048 .f32) (r : Fin 512) (k : Fin 2048) :
    broadcastTo S512x2048 (shapeCast S512x1 (multiReduction .maximumf [1] S512 x 0xFF800000#32 reduces_S512x2048_S512 (.inl rfl) rfl)
        shapeCasts_S512_S512x1) broadcasts_S512x1_S512x2048 (ix2 r k)
      = Finset.univ.fold max (Ideal.ofBits .f32 0xFF800000#32) (fun j : Fin 2048 => x (ix2 r j)) :=
  (column_spread _ shapeCasts_S512_S512x1 broadcasts_S512x1_S512x2048 r k).trans
    (row_max_apply x _ reduces_S512x2048_S512 _ _ r)

/-- A row's sum spread back over the row. -/
theorem rowsum_spread (x : FVec Ideal S512x2048 .f32) (r : Fin 512) (k : Fin 2048) :
    broadcastTo S512x2048 (shapeCast S512x1 (multiReduction .add [1] S512 x 0x00000000#32 reduces_S512x2048_S512 (.inl rfl) rfl)
        shapeCasts_S512_S512x1) broadcasts_S512x1_S512x2048 (ix2 r k)
      = ∑ j : Fin 2048, x (ix2 r j) :=
  (column_spread _ shapeCasts_S512_S512x1 broadcasts_S512x1_S512x2048 r k).trans
    ((Ideal.multiReduction_add_single x _ reduces_S512x2048_S512 _ _ (ix1 r)).trans
      (Finset.sum_congr rfl fun j _ => congrArg x (lift_row reduces_S512x2048_S512 r j)))

/-- The scores after scaling and masking. -/
def maskedScores (mb : IVec S512x2048 1) (sc scl : FVec Ideal S512x2048 .f32) : FVec Ideal S512x2048 .f32 :=
  select mb (broadcast S512x2048 (Scalar.ofBits .f32 0xF49DC5AE#32 : Ideal .f32)) (mulf sc scl)

/-- The exponentials of the scores less their row's maximum. -/
def shifted (s : FVec Ideal S512x2048 .f32) : FVec Ideal S512x2048 .f32 :=
  exp (subf s (broadcastTo S512x2048 (shapeCast S512x1
    (multiReduction .maximumf [1] S512 s 0xFF800000#32 reduces_S512x2048_S512 (.inl rfl) rfl) shapeCasts_S512_S512x1)
    broadcasts_S512x1_S512x2048))

/-- Each entry divided by its row's sum. -/
def weights (p : FVec Ideal S512x2048 .f32) : FVec Ideal S512x2048 .bf16 :=
  truncf .bf16 (divf p (broadcastTo S512x2048 (shapeCast S512x1
    (multiReduction .add [1] S512 p 0x00000000#32 reduces_S512x2048_S512 (.inl rfl) rfl) shapeCasts_S512_S512x1)
    broadcasts_S512x1_S512x2048)) bitsLt_bf16_f32

/-- One head's computation, from the mask bits, the raw scores, the scale splat and the head's values. -/
def headCore (mb : IVec S512x2048 1) (sc scl : FVec Ideal S512x2048 .f32) (vv : FVec Ideal S2048x64 .bf16) :
    FVec Ideal S512x64 .bf16 :=
  truncf .bf16 (matmul dot_S512x2048_S2048x64_S512x64_1_0_0_1_n_n none (weights (shifted (maskedScores mb sc scl))) vv (constant S512x64 .f32 0x00000000#32))
    bitsLt_bf16_f32

theorem maskedScores_apply (mb : IVec S512x2048 1) (sc : FVec Ideal S512x2048 .f32) (cst : Ideal .f32) (r : Fin 512) (k : Fin 2048) :
    maskedScores mb sc (broadcast S512x2048 cst) (ix2 r k)
      = Scalar.select (mb (ix2 r k)) (Ideal.ofBits .f32 0xF49DC5AE#32) (sc (ix2 r k) * cst) := rfl

theorem shifted_apply (s : FVec Ideal S512x2048 .f32) (r : Fin 512) (k : Fin 2048) :
    shifted s (ix2 r k)
      = Ideal.exp (s (ix2 r k) - Finset.univ.fold max (Ideal.ofBits .f32 0xFF800000#32) (fun j : Fin 2048 => s (ix2 r j))) :=
  congrArg (fun z => Ideal.exp (s (ix2 r k) - z)) (rowmax_spread s r k)

theorem weights_apply (p : FVec Ideal S512x2048 .f32) (r : Fin 512) (k : Fin 2048) :
    weights p (ix2 r k) = Ideal.div (p (ix2 r k)) (∑ j : Fin 2048, p (ix2 r j)) :=
  congrArg (fun z => Ideal.div (p (ix2 r k)) z) (rowsum_spread p r k)

/-- The free axes of the weights-by-values product's dimension numbers. -/
theorem dotPV_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem dotPV_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- One head's computation at (r, d): the softmax row of the masked, scaled scores of row r against column d of
    the values. -/
theorem headCore_apply (mb : IVec S512x2048 1) (sc : FVec Ideal S512x2048 .f32) (cst : Ideal .f32)
    (vv : FVec Ideal S2048x64 .bf16) (r : Fin 512) (d : Fin 64) :
    headCore mb sc (broadcast S512x2048 cst) vv (ix2 r d)
      = Cert.Attn.softmaxRow (Ideal.ofBits .f32 0xFF800000#32)
          (fun k : Fin 2048 => Scalar.select (mb (ix2 r k)) (Ideal.ofBits .f32 0xF49DC5AE#32) (sc (ix2 r k) * cst))
          (fun k => vv (ix2 k d)) := by
  unfold headCore Cert.Attn.softmaxRow
  refine matmul_zero_rows dot_S512x2048_S2048x64_S512x64_1_0_0_1_n_n none rfl rfl rfl rfl dotPV_lhs0 dotPV_rhs1 _ _ (ix2 r d) _ _ (fun k => ?_) (fun k => rfl)
  refine (weights_apply _ r k).trans ?_
  simp only [shifted_apply, maskedScores_apply]

end Cert.KernelIdeal.Attn

end
-- ==== Proof.AttnPayload.lean ====
/-
  The attention body's payload at an entry of its 512 x 128 output block.

  The block holds two heads side by side: columns 0..63 and 64..127. For the head at column offset off (0 or 64), the
  raw scores are the product of the query block's 64 columns from off with the transposed key block's, so entry
  (r, k) is the 64-term dot product of query row r and key row k over those columns; the values are the value
  block's 64 columns from off; the mask bit at (r, k) is "the loaded 32-bit word at (r, k) is not zero". Each head
  goes through the per-head computation read in the previous module, and the two results are concatenated along the
  columns: entry (r, c) belongs to the head c / 64, at position c mod 64 of that head.
-/
import proofs.«155274_j68135361184458_2_alg».proof.Proof.AttnBody

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.ShloMosaic.MatmulRows Idealize.ShloMosaic.Keepdims Idealize.ShloMosaic.RowMax

/-- Column (c / 64) * 64 + d of the 128-column block: position d of the head that column c belongs to. -/
def hcol128 (c : Fin 128) (d : Fin 64) : Fin 128 := ⟨c.val / 64 * 64 + d.val, by have := c.isLt; have := d.isLt; omega⟩

/-- The raw scores of the head at column offset off: query columns off.. against the transposed key columns off.. . -/
def qkBlock (off : ℕ) (hq : S512x128.Slices ![0, off] S512x64) (hk : S2048x128.Slices ![0, off] S2048x64)
    (x0 : Vec Ideal S1x512x128 .bf16) (x1 : Vec Ideal S1x2048x128 .bf16) : FVec Ideal S512x2048 .f32 :=
  matmul dot_S512x64_S64x2048_S512x2048_1_0_0_1_n_n none (extractStridedSlice S512x64 ![0, off] (k1_pay2 x0) hq)
    (transpose S64x2048 [1, 0] (extractStridedSlice S2048x64 ![0, off] (k1_pay3 x1) hk) transposes_S2048x64_p1_0_S64x2048)
    (constant S512x2048 .f32 0x00000000#32)

theorem pay8_eq (x0 : Vec Ideal S1x512x128 .bf16) (x1 : Vec Ideal S1x2048x128 .bf16) :
    k1_pay8 x0 x1 = qkBlock 64 slices_S512x128_o0_64_S512x64 slices_S2048x128_o0_64_S2048x64 x0 x1 := rfl

theorem pay6_eq (x0 : Vec Ideal S1x512x128 .bf16) (x1 x2 : Vec Ideal S1x2048x128 .bf16) (x3 : Vec Ideal S1x512x2048 .i32) :
    k1_pay6 x0 x1 x2 x3 = headCore (k1_pay5 x3) (qkBlock 0 slices_S512x128_o0_0_S512x64 slices_S2048x128_o0_0_S2048x64 x0 x1)
      (broadcast S512x2048 (Scalar.ofBits .f32 0x3E000000#32 : Ideal .f32))
      (extractStridedSlice S2048x64 ![0, 0] (k1_pay4 x2) slices_S2048x128_o0_0_S2048x64) := rfl

theorem pay1_eq (v8 : IVec S512x2048 1) (v29 : FVec Ideal S512x64 .bf16) (v32 : FVec Ideal S2048x64 .bf16)
    (v34 v35 : FVec Ideal S512x2048 .f32) :
    k1_pay1 v8 v29 v32 v34 v35 = shapeCast S1x512x128
      (concatenate S512x128 1 [⟨S512x64, v29⟩, ⟨S512x64, headCore v8 v34 v35 v32⟩] concatenates_S512x64_S512x64_S512x128_d1)
      shapeCasts_S512x128_S1x512x128 := rfl

/-- The free axes of the query-by-key product's dimension numbers. -/
theorem dotQK_lhs0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide),
    dif_pos (show (0 : Fin S512x64.rank) ∈ dot_S512x64_S64x2048_S512x2048_1_0_0_1_n_n.lhsNonContracting by decide)]
  rfl
theorem dotQK_rhs1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide),
    dif_pos (show (1 : Fin S64x2048.rank) ∈ dot_S512x64_S64x2048_S512x2048_1_0_0_1_n_n.rhsNonContracting by decide)]
  rfl

/-- A raw score: the dot product of query row r and key row k over the head's 64 columns, named by col. -/
theorem qkBlock_apply (off : ℕ) (hq : S512x128.Slices ![0, off] S512x64) (hk : S2048x128.Slices ![0, off] S2048x64)
    (col : Fin 64 → Fin 128) (hcol : ∀ d, (col d).val = off + d.val)
    (x0 : Vec Ideal S1x512x128 .bf16) (x1 : Vec Ideal S1x2048x128 .bf16) (r : Fin 512) (k : Fin 2048) :
    qkBlock off hq hk x0 x1 (ix2 r k)
      = ∑ d : Fin 64, x0 (ix3 (0 : Fin 1) r (col d)) * x1 (ix3 (0 : Fin 1) k (col d)) := by
  unfold qkBlock
  refine matmul_zero_rows dot_S512x64_S64x2048_S512x2048_1_0_0_1_n_n none rfl rfl rfl rfl dotQK_lhs0 dotQK_rhs1 _ _ (ix2 r k) _ _ (fun d => ?_) (fun d => ?_)
  · show extractStridedSlice S512x64 ![0, off] (k1_pay2 x0) hq (ix2 r d) = _
    rw [extractStridedSlice_apply ![0, off] _ hq (ix2 r d) (ix2 r (col d)) (fun a => by
      match a with
      | ⟨0, _⟩ => show r.val = 0 + r.val; omega
      | ⟨1, _⟩ => exact hcol d)]
    unfold k1_pay2
    exact dropUnit3_apply x0 _ r (col d)
  · show transpose S64x2048 [1, 0] (extractStridedSlice S2048x64 ![0, off] (k1_pay3 x1) hk) transposes_S2048x64_p1_0_S64x2048 (ix2 d k) = _
    rw [transpose_apply [1, 0] _ transposes_S2048x64_p1_0_S64x2048 (ix2 d k) (ix2 k d) (fun b => by
      match b with
      | ⟨0, _⟩ => rfl
      | ⟨1, _⟩ => rfl)]
    rw [extractStridedSlice_apply ![0, off] _ hk (ix2 k d) (ix2 k (col d)) (fun a => by
      match a with
      | ⟨0, _⟩ => show k.val = 0 + k.val; omega
      | ⟨1, _⟩ => exact hcol d)]
    unfold k1_pay3
    exact dropUnit3_apply x1 _ k (col d)

/-- The head's values at (k, d): the value block at key row k, column c' = off + d. -/
theorem vslice_apply (off : ℕ) (hv : S2048x128.Slices ![0, off] S2048x64) (x2 : Vec Ideal S1x2048x128 .bf16)
    (k : Fin 2048) (d : Fin 64) (c' : Fin 128) (hc' : c'.val = off + d.val) :
    extractStridedSlice S2048x64 ![0, off] (k1_pay4 x2) hv (ix2 k d) = x2 (ix3 (0 : Fin 1) k c') := by
  rw [extractStridedSlice_apply ![0, off] _ hv (ix2 k d) (ix2 k c') (fun a => by
    match a with
    | ⟨0, _⟩ => show k.val = 0 + k.val; omega
    | ⟨1, _⟩ => exact hc')]
  unfold k1_pay4
  exact dropUnit3_apply x2 _ k c'

/-- The mask bit at (r, k): the loaded word there is not zero. -/
theorem maskbit_apply (x3 : Vec Ideal S1x512x2048 .i32) (r : Fin 512) (k : Fin 2048) :
    k1_pay5 x3 (ix2 r k) = IntOp.cmpi .ne (x3 (ix3 (0 : Fin 1) r k)) 0#32 := by
  unfold k1_pay5
  show IntOp.cmpi .ne (shapeCast S512x2048 x3 shapeCasts_S1x512x2048_S512x2048 (ix2 r k)) (constantI S512x2048 32 0#32 (ix2 r k)) = _
  rw [dropUnit3_apply x3 _ r k]
  rfl

/-- The softmax row a head computes at row r against value column c', its 64 score columns named by col. -/
def blockRow (x0 : Vec Ideal S1x512x128 .bf16) (x1 x2 : Vec Ideal S1x2048x128 .bf16) (x3 : Vec Ideal S1x512x2048 .i32)
    (r : Fin 512) (col : Fin 64 → Fin 128) (c' : Fin 128) : EReal :=
  Cert.Attn.softmaxRow (Ideal.ofBits .f32 0xFF800000#32)
    (fun k : Fin 2048 => Scalar.select (IntOp.cmpi .ne (x3 (ix3 (0 : Fin 1) r k)) 0#32) (Ideal.ofBits .f32 0xF49DC5AE#32)
      ((∑ d : Fin 64, x0 (ix3 (0 : Fin 1) r (col d)) * x1 (ix3 (0 : Fin 1) k (col d))) * (Ideal.ofBits .f32 0x3E000000#32)))
    (fun k => x2 (ix3 (0 : Fin 1) k c'))

/-- The head at a column offset, at (r, d). -/
theorem head_at (off : ℕ) (hq : S512x128.Slices ![0, off] S512x64) (hk hv : S2048x128.Slices ![0, off] S2048x64)
    (x0 : Vec Ideal S1x512x128 .bf16) (x1 x2 : Vec Ideal S1x2048x128 .bf16) (x3 : Vec Ideal S1x512x2048 .i32)
    (r : Fin 512) (d : Fin 64) (col : Fin 64 → Fin 128) (hcol : ∀ d, (col d).val = off + d.val)
    (c' : Fin 128) (hc' : c'.val = off + d.val) :
    headCore (k1_pay5 x3) (qkBlock off hq hk x0 x1) (broadcast S512x2048 (Scalar.ofBits .f32 0x3E000000#32 : Ideal .f32))
        (extractStridedSlice S2048x64 ![0, off] (k1_pay4 x2) hv) (ix2 r d)
      = blockRow x0 x1 x2 x3 r col c' := by
  rw [headCore_apply]
  unfold blockRow
  have hS : (fun k : Fin 2048 => Scalar.select (k1_pay5 x3 (ix2 r k)) (Ideal.ofBits .f32 0xF49DC5AE#32)
        (qkBlock off hq hk x0 x1 (ix2 r k) * (Scalar.ofBits .f32 0x3E000000#32 : Ideal .f32)))
      = fun k : Fin 2048 => Scalar.select (IntOp.cmpi .ne (x3 (ix3 (0 : Fin 1) r k)) 0#32) (Ideal.ofBits .f32 0xF49DC5AE#32)
        ((∑ d : Fin 64, x0 (ix3 (0 : Fin 1) r (col d)) * x1 (ix3 (0 : Fin 1) k (col d))) * (Ideal.ofBits .f32 0x3E000000#32)) :=
    funext fun k => by rw [maskbit_apply, qkBlock_apply off hq hk col hcol]; rfl
  have hV : (fun k : Fin 2048 => extractStridedSlice S2048x64 ![0, off] (k1_pay4 x2) hv (ix2 k d))
      = fun k : Fin 2048 => x2 (ix3 (0 : Fin 1) k c') :=
    funext fun k => vslice_apply off hv x2 k d c' hc'
  rw [hS, hV]

/-- The block's payload at (r, c): the softmax row of the head of column c. -/
theorem attn_payload (x0 : Vec Ideal S1x512x128 .bf16) (x1 x2 : Vec Ideal S1x2048x128 .bf16) (x3 : Vec Ideal S1x512x2048 .i32)
    (r : Fin 512) (c : Fin 128) :
    k1_pay1 (k1_pay5 x3) (k1_pay6 x0 x1 x2 x3) (k1_pay7 x2) (k1_pay8 x0 x1) (k1_pay9 (F := Ideal)) (ix3 (0 : Fin 1) r c)
      = blockRow x0 x1 x2 x3 r (hcol128 c) c := by
  have hcl : c.val < 128 := c.isLt
  rw [pay1_eq, addUnit3_apply]
  by_cases hc : c.val < 64
  · rw [concatenate_pair_apply_left (t := S512x128) (s₁ := S512x64) (s₂ := S512x64) (1 : Fin 2) _ _ concatenates_S512x64_S512x64_S512x128_d1 (ix2 r c) rfl
      (ix2 r (⟨c.val, hc⟩ : Fin 64)) (fun b => by
        match b with
        | ⟨0, _⟩ => rfl
        | ⟨1, _⟩ => rfl)]
    rw [pay6_eq]
    exact head_at 0 slices_S512x128_o0_0_S512x64 slices_S2048x128_o0_0_S2048x64 slices_S2048x128_o0_0_S2048x64 x0 x1 x2 x3 r ⟨c.val, hc⟩ (hcol128 c)
      (fun d => by show c.val / 64 * 64 + d.val = 0 + d.val; omega) c (by show c.val = 0 + c.val; omega)
  · have hc' : c.val - 64 < 64 := by omega
    rw [concatenate_pair_apply_right (t := S512x128) (s₁ := S512x64) (s₂ := S512x64) (1 : Fin 2) _ _ concatenates_S512x64_S512x64_S512x128_d1 (ix2 r c) rfl rfl
      (ix2 r (⟨c.val - 64, hc'⟩ : Fin 64)) (fun b hb => by
        match b with
        | ⟨0, _⟩ => rfl
        | ⟨1, _⟩ => exact absurd rfl hb) (by show c.val - 64 + 64 = c.val; omega)]
    rw [pay8_eq]
    exact head_at 64 slices_S512x128_o0_64_S512x64 slices_S2048x128_o0_64_S2048x64 slices_S2048x128_o0_64_S2048x64 x0 x1 x2 x3 r ⟨c.val - 64, hc'⟩ (hcol128 c)
      (fun d => by show c.val / 64 * 64 + d.val = 64 + d.val; omega) c (by show c.val = 64 + (c.val - 64); omega)

end Cert.KernelIdeal.Attn

end
-- ==== Proof.AttnValue.lean ====
/-
  The attention region: what its output array holds after all 128 grid points.

  Point (b, si, hp) loads rows 512 si .. 512 si + 511 and columns 128 hp .. 128 hp + 127 of batch b of the queries, all
  2048 rows and the same 128 columns of the keys and of the values, and rows 512 si .. of the mask words of batch b with
  all 2048 columns; it writes back the two heads' outputs into the queries' rectangle of the output. Row r of a block
  is row 512 si + r of the array, column c of a block is column 128 hp + c, and the head of column 128 hp + c is the
  head of c shifted by the block's two heads, so the block's payload at (r, c) is the softmax row of the array entry
  (b, 512 si + r, 128 hp + c); the 128 blocks cover the array.
-/
import proofs.«155274_j68135361184458_2_alg».proof.Proof.Gen.KernelIdeal.Frame
import proofs.«155274_j68135361184458_2_alg».proof.Proof.AttnPayload
import Idealize.ShloMosaic.Lib.Pipeline.Value
import Idealize.ShloMosaic.Lib.ValueIdx
import Idealize.ShloMosaic.PureOps.Ideal.Laws

set_option maxRecDepth 16384

noncomputable section

namespace Cert.KernelIdeal.Attn

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Column (e / 64) * 64 + d of a 1024-column row: position d of the head that column e belongs to. -/
def hcol1024 (e : Fin 1024) (d : Fin 64) : Fin 1024 := ⟨e.val / 64 * 64 + d.val, by have := e.isLt; have := d.isLt; omega⟩

/-- The whole output as one function of the query, key, value and mask-word arrays. -/
def attnArr (q k v : S4x2048x1024.Idx → EReal) (m32 : S4x2048x2048.Idx → BitVec 32) : S4x2048x1024.Idx → EReal :=
  fun i => Cert.Attn.softmaxRow (Ideal.ofBits .f32 0xFF800000#32)
    (fun kk : Fin 2048 => Scalar.select (IntOp.cmpi .ne (m32 (ix3 (i 0) (i 1) kk)) 0#32) (Ideal.ofBits .f32 0xF49DC5AE#32)
      ((∑ d : Fin 64, q (ix3 (i 0) (i 1) (hcol1024 (i 2) d)) * k (ix3 (i 0) kk (hcol1024 (i 2) d))) * (Ideal.ofBits .f32 0x3E000000#32)))
    (fun kk => v (ix3 (i 0) kk (i 2)))

/-- Two softmax rows with equal scores and equal values are equal. -/
theorem softmaxRow_congr {n : ℕ} (neg : EReal) (S1 S2 V1 V2 : Fin n → EReal) (hS : ∀ k, S1 k = S2 k) (hV : ∀ k, V1 k = V2 k) :
    Cert.Attn.softmaxRow neg S1 V1 = Cert.Attn.softmaxRow neg S2 V2 := by
  rw [funext hS, funext hV]

theorem attn_zeros3 : (![0, 0, 0] : Fin 3 → Nat) = fun _ => 0 := funext fun a => by fin_cases a <;> rfl

/-- The index maps over the 128 points. -/
theorem attn_index : ∀ t : Fin cfg1.N,
    win1_0.index t (0 : Fin 3) = win1_4.index t (0 : Fin 3) ∧ win1_0.index t (1 : Fin 3) = win1_4.index t (1 : Fin 3)
    ∧ win1_0.index t (2 : Fin 3) = win1_4.index t (2 : Fin 3)
    ∧ win1_1.index t (0 : Fin 3) = win1_4.index t (0 : Fin 3) ∧ win1_1.index t (1 : Fin 3) = 0
    ∧ win1_1.index t (2 : Fin 3) = win1_4.index t (2 : Fin 3)
    ∧ win1_2.index t (0 : Fin 3) = win1_4.index t (0 : Fin 3) ∧ win1_2.index t (1 : Fin 3) = 0
    ∧ win1_2.index t (2 : Fin 3) = win1_4.index t (2 : Fin 3)
    ∧ win1_3.index t (0 : Fin 3) = win1_4.index t (0 : Fin 3) ∧ win1_3.index t (1 : Fin 3) = win1_4.index t (1 : Fin 3)
    ∧ win1_3.index t (2 : Fin 3) = 0 :=
  (by decide +kernel : ∀ t : Fin grid1.N, _)

/-- Every (batch, row block, column block) is some point's. -/
theorem attn_onto : ∀ (q0 : Fin 4) (q1 : Fin 4) (q2 : Fin 8), ∃ t : Fin cfg1.N, win1_4.index t = ![q0.val, q1.val, q2.val] :=
  (by decide +kernel : ∀ (q0 : Fin 4) (q1 : Fin 4) (q2 : Fin 8), ∃ t : Fin grid1.N, win1_4.index t = ![q0.val, q1.val, q2.val])

variable (V : (c : Dev nD) → (b : Ref sig .tc) → Buf (Elt Ideal) ((c : Thread nD τ).loc b))

/-- What point t writes back is block t of that function of the arrays as the region finds them. -/
theorem attn_flushed (c : Dev nD) (t : Fin cfg1.N) :
    (dat1 (F := Ideal) V c).flushed 4 t
      = ((cfg1.win 4).blk t).view.read (Elt Ideal)
          (attnArr (V c (Pipeline.arrRef spec1 0)) (V c (Pipeline.arrRef spec1 1)) (V c (Pipeline.arrRef spec1 2))
            (V c (Pipeline.arrRef spec1 3))) := by
  show (cfg1.win 4).cut (grid1.coords t) ((dat1 V c).after 4 t) = _
  rw [after1_4]
  unfold out1_4
  rw [View.canon_unit_zero attn_zeros3]
  simp only [View.ld_unit_zero (S := S1x512x128) attn_zeros3, View.ld_unit_zero (S := S1x2048x128) attn_zeros3,
    View.ld_unit_zero (S := S1x512x2048) attn_zeros3]
  funext j
  obtain ⟨u, r, cc, rfl⟩ : ∃ (u : Fin 1) (r : Fin 512) (cc : Fin 128), j = ix3 u r cc := ⟨j 0, j 1, j 2, eq_ix3 j⟩
  obtain rfl : u = 0 := Fin.ext (by omega)
  show k1_pay1 (k1_pay5 (iblk1 V c 3 t)) (k1_pay6 (iblk1 V c 0 t) (iblk1 V c 1 t) (iblk1 V c 2 t) (iblk1 V c 3 t))
      (k1_pay7 (iblk1 V c 2 t)) (k1_pay8 (iblk1 V c 0 t) (iblk1 V c 1 t)) (k1_pay9 (F := Ideal)) (ix3 (0 : Fin 1) r cc)
    = attnArr (V c (Pipeline.arrRef spec1 0)) (V c (Pipeline.arrRef spec1 1)) (V c (Pipeline.arrRef spec1 2))
        (V c (Pipeline.arrRef spec1 3)) (((cfg1.win 4).blk t).view.emb (ix3 (0 : Fin 1) r cc))
  refine (attn_payload _ _ _ _ r cc).trans ?_
  obtain ⟨e0, e1, e2, e3, e4, e5, e6, e7, e8, e9, e10, e11⟩ := attn_index t
  have hr : r.val < 512 := r.isLt
  have hcc : cc.val < 128 := cc.isLt
  -- the array index of the block entry
  have hE0 : ((((cfg1.win 4).blk t).view.emb (ix3 (0 : Fin 1) r cc)) 0).val = win1_4.index t (0 : Fin 3) * 1 + 1 * 0 := rfl
  have hE1 : ((((cfg1.win 4).blk t).view.emb (ix3 (0 : Fin 1) r cc)) 1).val = win1_4.index t (1 : Fin 3) * 512 + 1 * r.val := rfl
  have hE2 : ((((cfg1.win 4).blk t).view.emb (ix3 (0 : Fin 1) r cc)) 2).val = win1_4.index t (2 : Fin 3) * 128 + 1 * cc.val := rfl
  have hm : ∀ kk : Fin 2048, ((cfg1.win 3).blk t).view.emb (ix3 (0 : Fin 1) r kk)
      = ix3 ((((cfg1.win 4).blk t).view.emb (ix3 (0 : Fin 1) r cc)) 0) ((((cfg1.win 4).blk t).view.emb (ix3 (0 : Fin 1) r cc)) 1) kk := by
    intro kk; funext a; apply Fin.ext
    match a with
    | ⟨0, _⟩ => show win1_3.index t (0 : Fin 3) * 1 + 1 * 0 = win1_4.index t (0 : Fin 3) * 1 + 1 * 0; omega
    | ⟨1, _⟩ => show win1_3.index t (1 : Fin 3) * 512 + 1 * r.val = win1_4.index t (1 : Fin 3) * 512 + 1 * r.val; omega
    | ⟨2, _⟩ => show win1_3.index t (2 : Fin 3) * 2048 + 1 * kk.val = kk.val; omega
  have hq : ∀ d : Fin 64, ((cfg1.win 0).blk t).view.emb (ix3 (0 : Fin 1) r (hcol128 cc d))
      = ix3 ((((cfg1.win 4).blk t).view.emb (ix3 (0 : Fin 1) r cc)) 0) ((((cfg1.win 4).blk t).view.emb (ix3 (0 : Fin 1) r cc)) 1)
          (hcol1024 ((((cfg1.win 4).blk t).view.emb (ix3 (0 : Fin 1) r cc)) 2) d) := by
    intro d; funext a; apply Fin.ext
    have hd : d.val < 64 := d.isLt
    match a with
    | ⟨0, _⟩ => show win1_0.index t (0 : Fin 3) * 1 + 1 * 0 = win1_4.index t (0 : Fin 3) * 1 + 1 * 0; omega
    | ⟨1, _⟩ => show win1_0.index t (1 : Fin 3) * 512 + 1 * r.val = win1_4.index t (1 : Fin 3) * 512 + 1 * r.val; omega
    | ⟨2, _⟩ =>
      show win1_0.index t (2 : Fin 3) * 128 + 1 * (cc.val / 64 * 64 + d.val)
        = (win1_4.index t (2 : Fin 3) * 128 + 1 * cc.val) / 64 * 64 + d.val
      omega
  have hk : ∀ (kk : Fin 2048) (d : Fin 64), ((cfg1.win 1).blk t).view.emb (ix3 (0 : Fin 1) kk (hcol128 cc d))
      = ix3 ((((cfg1.win 4).blk t).view.emb (ix3 (0 : Fin 1) r cc)) 0) kk
          (hcol1024 ((((cfg1.win 4).blk t).view.emb (ix3 (0 : Fin 1) r cc)) 2) d) := by
    intro kk d; funext a; apply Fin.ext
    have hd : d.val < 64 := d.isLt
    match a with
    | ⟨0, _⟩ => show win1_1.index t (0 : Fin 3) * 1 + 1 * 0 = win1_4.index t (0 : Fin 3) * 1 + 1 * 0; omega
    | ⟨1, _⟩ => show win1_1.index t (1 : Fin 3) * 2048 + 1 * kk.val = kk.val; omega
    | ⟨2, _⟩ =>
      show win1_1.index t (2 : Fin 3) * 128 + 1 * (cc.val / 64 * 64 + d.val)
        = (win1_4.index t (2 : Fin 3) * 128 + 1 * cc.val) / 64 * 64 + d.val
      omega
  have hv : ∀ kk : Fin 2048, ((cfg1.win 2).blk t).view.emb (ix3 (0 : Fin 1) kk cc)
      = ix3 ((((cfg1.win 4).blk t).view.emb (ix3 (0 : Fin 1) r cc)) 0) kk ((((cfg1.win 4).blk t).view.emb (ix3 (0 : Fin 1) r cc)) 2) := by
    intro kk; funext a; apply Fin.ext
    match a with
    | ⟨0, _⟩ => show win1_2.index t (0 : Fin 3) * 1 + 1 * 0 = win1_4.index t (0 : Fin 3) * 1 + 1 * 0; omega
    | ⟨1, _⟩ => show win1_2.index t (1 : Fin 3) * 2048 + 1 * kk.val = kk.val; omega
    | ⟨2, _⟩ => show win1_2.index t (2 : Fin 3) * 128 + 1 * cc.val = win1_4.index t (2 : Fin 3) * 128 + 1 * cc.val; omega
  unfold blockRow attnArr
  refine softmaxRow_congr _ _ _ _ _ (fun kk => ?_) (fun kk => ?_)
  · exact congrArg₂ (fun (w : BitVec 32) (x : EReal) => Scalar.select (IntOp.cmpi .ne w 0#32) (Ideal.ofBits .f32 0xF49DC5AE#32) (x * (Ideal.ofBits .f32 0x3E000000#32)))
      (congrArg (V c (Pipeline.arrRef spec1 3) : S4x2048x2048.Idx → BitVec 32) (hm kk))
      (Finset.sum_congr rfl fun d _ => congrArg₂ (fun a b : EReal => a * b)
        (congrArg (V c (Pipeline.arrRef spec1 0) : S4x2048x1024.Idx → EReal) (hq d))
        (congrArg (V c (Pipeline.arrRef spec1 1) : S4x2048x1024.Idx → EReal) (hk kk d)))
  · exact congrArg (V c (Pipeline.arrRef spec1 2) : S4x2048x1024.Idx → EReal) (hv kk)

/-- An index lies in point t's block iff each coordinate lies in the block's range. -/
theorem attn_mem_blk (t : Fin cfg1.N) (i : S4x2048x1024.Idx) :
    i ∈ ((cfg1.win 4).blk t).view.set ↔ ∀ a : Fin 3, win1_4.index t a * S1x512x128.size a ≤ (i a).val
      ∧ (i a).val < win1_4.index t a * S1x512x128.size a + S1x512x128.size a := by
  show i ∈ ((View.whole main_v6).slice (win1_4.rect t)).set ↔ _
  rw [View.set_slice_whole, Rect.mem_set_unit]
  exact Iff.rfl

/-- Entry (b, s, e) lies in the block of the point with batch b, row block s / 512 and column block e / 128. -/
theorem attn_cover (i : S4x2048x1024.Idx) :
    ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 1024 := (i 2).isLt
  obtain ⟨t, ht⟩ := attn_onto ⟨(i 0).val, hi0⟩ ⟨(i 1).val / 512, by omega⟩ ⟨(i 2).val / 128, by omega⟩
  have q0 : win1_4.index t (0 : Fin 3) = (i 0).val := congrFun ht 0
  have q1 : win1_4.index t (1 : Fin 3) = (i 1).val / 512 := congrFun ht 1
  have q2 : win1_4.index t (2 : Fin 3) = (i 2).val / 128 := congrFun ht 2
  refine ⟨t, flush1_4 t, ?_⟩
  rw [attn_mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 128 ≤ (i 2).val ∧ (i 2).val < win1_4.index t (2 : Fin 3) * 128 + 128; omega

/-- The output array after the region. -/
theorem attn_final (c : Dev nD) :
    (dat1 (F := Ideal) V c).arrAt 4 cfg1.N
      = attnArr (V c (Pipeline.arrRef spec1 0)) (V c (Pipeline.arrRef spec1 1)) (V c (Pipeline.arrRef spec1 2))
          (V c (Pipeline.arrRef spec1 3)) :=
  (dat1 V c).arrAt_eq_of_cover 4 _ (fun t _ => attn_flushed V c t) attn_cover

end Cert.KernelIdeal.Attn

end
-- ==== Proof.OutProjValue.lean ====
/-
  The output projection region: what its output array holds after all eight grid points.

  The region multiplies an 8192 by 1024 array x, 1024 rows at a time, by a 1024 by 1024 matrix w held whole:
  point t loads rows 1024 t .. 1024 t + 1023 of x and all of w, and writes back the product of the two blocks
  into the same rows of the output. A product into the zero accumulator is, entry by entry, the sum over the
  contraction index of the factors' products; row r of block t is row 1024 t + r of x, so every output entry
  (r, o) is the sum over e of x(r, e) * w(e, o), and the eight blocks cover the 8192 rows.
-/
import proofs.«155274_j68135361184458_2_alg».proof.Proof.Gen.KernelIdeal.Frame
import proofs.«155274_j68135361184458_2_alg».proof.Proof.LibMatmulRows
import Idealize.ShloMosaic.Lib.Pipeline.Value
import Idealize.ShloMosaic.Lib.ValueIdx
import Idealize.ShloMosaic.PureOps.Ideal.Laws

set_option maxRecDepth 16384

noncomputable section

namespace Cert.KernelIdeal.Attn

open Cert.KernelIdeal Cert.KernelIdeal.Gen
open Idealize.ShloMosaic Idealize.ShloMosaic.TcCoe Idealize.ShloMosaic.ValueIdx Idealize.SL.Sem
open Idealize.ShloMosaic.Pipeline (Dat Cfg Window)

open Idealize.ShloMosaic.MatmulRows

/-- The free axes of the 1024 x 1024 by 1024 x 1024 product's dimension numbers. -/
theorem dot1024_lhs0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem dot1024_rhs1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The body's one payload at an entry: the block product's sum. -/
theorem outproj_payload (x0 x1 : Vec Ideal S1024x1024 .bf16) (j : S1024x1024.Idx) :
    k2_pay1 x0 x1 j = ∑ k : Fin 1024, x0 (ix2 (j 0) k) * x1 (ix2 k (j 1)) := by
  unfold k2_pay1
  rw [shapeCast_self, shapeCast_self]
  exact matmul_zero_apply dot_S1024x1024_S1024x1024_S1024x1024_1_0_0_1_n_n none rfl rfl rfl rfl
    dot1024_lhs0 dot1024_rhs1 x0 x1 j

/-- The whole output as one function of the two input arrays. -/
def outArr (x : S8192x1024.Idx → EReal) (w : S1024x1024.Idx → EReal) : S8192x1024.Idx → EReal :=
  fun i => ∑ k : Fin 1024, x (ix2 (i 0) k) * w (ix2 k (i 1))

theorem zeros2 : (![0, 0] : Fin 2 → Nat) = fun _ => 0 := funext fun a => by fin_cases a <;> rfl

/-- The index maps over the eight points: the row block moves with the point, the weight's block never moves. -/
theorem outproj_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of that function of the arrays as the region finds them. -/
theorem outproj_flushed (c : Dev nD) (t : Fin cfg2.N) :
    (dat2 (F := Ideal) V c).flushed 2 t
      = ((cfg2.win 2).blk t).view.read (Elt Ideal) (outArr (V c (Pipeline.arrRef spec2 0)) (V c (Pipeline.arrRef spec2 1))) := by
  show (cfg2.win 2).cut (grid2.coords t) ((dat2 V c).after 2 t) = _
  rw [after2_2]
  unfold out2_2
  rw [View.canon_unit_zero zeros2]
  simp only [View.ld_unit_zero (S := S1024x1024) zeros2]
  funext j
  show k2_pay1 (iblk2 V c 0 t) (iblk2 V c 1 t) j
    = outArr (V c (Pipeline.arrRef spec2 0)) (V c (Pipeline.arrRef spec2 1)) (((cfg2.win 2).blk t).view.emb j)
  refine (outproj_payload _ _ j).trans ?_
  obtain ⟨e0, e1, e2, e3, e4, e5⟩ := outproj_index t
  refine Finset.sum_congr rfl fun k _ => ?_
  have hj0 : (j 0).val < 1024 := (j 0).isLt
  have hj1 : (j 1).val < 1024 := (j 1).isLt
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 1024 + 1 * (j 0).val = win2_2.index t (0 : Fin 2) * 1024 + 1 * (j 0).val; omega
    | ⟨1, _⟩ => show win2_0.index t (1 : Fin 2) * 1024 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 1024 + 1 * k.val = k.val; omega
    | ⟨1, _⟩ => show win2_1.index t (1 : Fin 2) * 1024 + 1 * (j 1).val = win2_2.index t (1 : Fin 2) * 1024 + 1 * (j 1).val; omega
  exact congrArg₂ (fun a b : EReal => a * b)
    (congrArg (V c (Pipeline.arrRef spec2 0) : S8192x1024.Idx → EReal) h0)
    (congrArg (V c (Pipeline.arrRef spec2 1) : S1024x1024.Idx → EReal) h1)

/-- An index lies in point t's block iff each coordinate lies in the block's range. -/
theorem outproj_mem_blk (t : Fin cfg2.N) (i : S8192x1024.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v8).slice (win2_2.rect t)).set ↔ _
  rw [View.set_slice_whole, Rect.mem_set_unit]
  exact Iff.rfl

/-- Row r lies in the block of point r / 1024. -/
theorem outproj_cover (i : S8192x1024.Idx) :
    ∃ t : Fin cfg2.N, (cfg2.win 2).flush t = true ∧ i ∈ ((cfg2.win 2).blk t).view.set := by
  have hi0 : (i 0).val < 8192 := (i 0).isLt
  have hi1 : (i 1).val < 1024 := (i 1).isLt
  have ht : (i 0).val / 1024 < cfg2.N := by show _ < 8; omega
  refine ⟨⟨(i 0).val / 1024, ht⟩, flush2_2 _, ?_⟩
  obtain ⟨e0, e1, e2, e3, e4, e5⟩ := outproj_index ⟨(i 0).val / 1024, ht⟩
  rw [outproj_mem_blk]
  intro a
  match a with
  | ⟨0, _⟩ =>
    show win2_2.index ⟨(i 0).val / 1024, ht⟩ (0 : Fin 2) * 1024 ≤ (i 0).val ∧ (i 0).val < win2_2.index ⟨(i 0).val / 1024, ht⟩ (0 : Fin 2) * 1024 + 1024
    rw [e4]; show (i 0).val / 1024 * 1024 ≤ _ ∧ _ < (i 0).val / 1024 * 1024 + 1024; omega
  | ⟨1, _⟩ =>
    show win2_2.index ⟨(i 0).val / 1024, ht⟩ (1 : Fin 2) * 1024 ≤ (i 1).val ∧ (i 1).val < win2_2.index ⟨(i 0).val / 1024, ht⟩ (1 : Fin 2) * 1024 + 1024
    rw [e5]; omega

/-- The output array after the region. -/
theorem outproj_final (c : Dev nD) :
    (dat2 (F := Ideal) V c).arrAt 2 cfg2.N = outArr (V c (Pipeline.arrRef spec2 0)) (V c (Pipeline.arrRef spec2 1)) :=
  (dat2 V c).arrAt_eq_of_cover 2 _ (fun t _ => outproj_flushed V c t) outproj_cover

end Cert.KernelIdeal.Attn

end
-- ==== Proof.KernelValue.lean ====
/-
  The idealized kernel's result as one function of its four arguments.

  The fold of the seven segments is opened at the result buffer, back to front. The last stretch reshapes the
  8192 x 1024 output of the third region to 4 x 2048 x 1024: entry (b, s, o) is entry (2048 b + s, o). The third region
  holds the rows of its first input against its second; its first input is the reshape of the second region's output
  (entry (2048 b + s, e) is entry (b, s, e)), its second the transposed output weight (entry (e, o) is Wo(o, e)). The
  second region's output is the attention function of the first region's three outputs and of the mask words, which are
  the mask bits widened to 32 bits, so that "the word is not zero" is the bit itself. The first region's outputs are the
  three thirds of the input against the transposed fused weight (entry (d, e) is Wa(e, d)). Put together, entry
  (b, s, o) is the specification's result with the scaling "times the literal 1/8".
-/
import proofs.«155274_j68135361184458_2_alg».proof.Proof.KernelRun
import proofs.«155274_j68135361184458_2_alg».proof.Proof.ProjValue
import proofs.«155274_j68135361184458_2_alg».proof.Proof.AttnValue
import proofs.«155274_j68135361184458_2_alg».proof.Proof.OutProjValue
import proofs.«155274_j68135361184458_2_alg».proof.Proof.AttnSpec
import Idealize.ShloMosaic.Lib.StableHlo.Run
import Idealize.ShloMosaic.Lib.Pipeline.Value
import Idealize.ShloMosaic.Lib.ValueIdx

set_option maxRecDepth 16384

noncomputable section

namespace Cert.KernelIdeal.Attn

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The four arguments, as arrays of extended reals and of bits. -/
abbrev argQ : S4x2048x1024.Idx → EReal := m ((c : Thread nD τ).loc main_arg0)
abbrev argMask : S4x2048x2048.Idx → BitVec 1 := m ((c : Thread nD τ).loc main_arg1)
abbrev argWa : S3072x1024.Idx → EReal := m ((c : Thread nD τ).loc main_arg2)
abbrev argWo : S1024x1024.Idx → EReal := m ((c : Thread nD τ).loc main_arg3)

/-- A bit widened to 32 bits is not the zero word exactly when the bit is set. -/
theorem widened_ne_zero (x : BitVec 1) : IntOp.cmpi .ne (x.setWidth 32) 0#32 = x := by
  by_cases h : x = 1#1
  · subst h; decide
  · have h0 := eq_zero_of_ne_one h; subst h0; decide

/-! ## The buffers at the regions' entries and exits -/

theorem entry0_input : W1 m ρ c (Proc.devRef .tc main_arg0) = argQ m c := by
  show StableHlo.after hostOps0 (W0 m ρ c) (Proc.devRef .tc main_arg0) = _
  after_results <;> rfl

theorem entry0_weight (d : Fin 1024) (e : Fin 3072) :
    (W1 m ρ c (Proc.devRef .tc main_v1) : S1024x3072.Idx → EReal) (ix2 d e) = argWa m c (ix2 e d) := by
  show (StableHlo.after hostOps0 (W0 m ρ c) (Proc.devRef .tc main_v1) : S1024x3072.Idx → EReal) (ix2 d e) = _
  after_results
  show transpose S1024x3072 [1, 0] (argWa m c) transposes_S3072x1024_S1024x3072_1_0 (ix2 d e) = _
  exact transpose_apply [1, 0] _ _ (ix2 d e) (ix2 e d) (fun b => by
    match b with
    | ⟨0, _⟩ => rfl
    | ⟨1, _⟩ => rfl)

theorem entry0_outweight (e o : Fin 1024) :
    (W1 m ρ c (Proc.devRef .tc main_v3) : S1024x1024.Idx → EReal) (ix2 e o) = argWo m c (ix2 o e) := by
  show (StableHlo.after hostOps0 (W0 m ρ c) (Proc.devRef .tc main_v3) : S1024x1024.Idx → EReal) (ix2 e o) = _
  after_results
  show transpose S1024x1024 [1, 0] (argWo m c) transposes_S1024x1024_S1024x1024_1_0 (ix2 e o) = _
  exact transpose_apply [1, 0] _ _ (ix2 e o) (ix2 o e) (fun b => by
    match b with
    | ⟨0, _⟩ => rfl
    | ⟨1, _⟩ => rfl)

theorem entry0_mask : W1 m ρ c (Proc.devRef .tc main_arg1) = argMask m c := by
  show StableHlo.after hostOps0 (W0 m ρ c) (Proc.devRef .tc main_arg1) = _
  after_results <;> rfl

/-- The first region's three outputs. -/
theorem exit0_q : W2 m ρ c (Proc.devRef .tc main_v4_0)
    = projArr 0 (by omega) (V1 m ρ c main_arg0) (V1 m ρ c main_v1) := (W2_arr m ρ c 2).trans (q_final (V1 m ρ) c)
theorem exit0_k : W2 m ρ c (Proc.devRef .tc main_v4_1)
    = projArr 1024 (by omega) (V1 m ρ c main_arg0) (V1 m ρ c main_v1) := (W2_arr m ρ c 3).trans (k_final (V1 m ρ) c)
theorem exit0_v : W2 m ρ c (Proc.devRef .tc main_v4_2)
    = projArr 2048 (by omega) (V1 m ρ c main_arg0) (V1 m ρ c main_v1) := (W2_arr m ρ c 4).trans (v_final (V1 m ρ) c)

/-- The second stretch leaves them in place and widens the mask. -/
theorem entry1_q : W3 m ρ c (Proc.devRef .tc main_v4_0) = W2 m ρ c (Proc.devRef .tc main_v4_0) := by
  show StableHlo.after hostOps1 (W2 m ρ c) (Proc.devRef .tc main_v4_0) = _
  after_results <;> rfl
theorem entry1_k : W3 m ρ c (Proc.devRef .tc main_v4_1) = W2 m ρ c (Proc.devRef .tc main_v4_1) := by
  show StableHlo.after hostOps1 (W2 m ρ c) (Proc.devRef .tc main_v4_1) = _
  after_results <;> rfl
theorem entry1_v : W3 m ρ c (Proc.devRef .tc main_v4_2) = W2 m ρ c (Proc.devRef .tc main_v4_2) := by
  show StableHlo.after hostOps1 (W2 m ρ c) (Proc.devRef .tc main_v4_2) = _
  after_results <;> rfl
theorem entry1_mask (i : S4x2048x2048.Idx) :
    (W3 m ρ c (Proc.devRef .tc main_v5) : S4x2048x2048.Idx → BitVec 32) i = (argMask m c i).setWidth 32 := by
  show (StableHlo.after hostOps1 (W2 m ρ c) (Proc.devRef .tc main_v5) : S4x2048x2048.Idx → BitVec 32) i = _
  after_results
  have h2 : W2 m ρ c (Proc.devRef .tc main_arg1) = argMask m c :=
    (W2_of_ne m ρ c main_arg1 (by decide)).trans (entry0_mask m ρ c)
  rw [h2]
  rfl

/-- The second region's output. -/
theorem exit1_o : W4 m ρ c (Proc.devRef .tc main_v6)
    = attnArr (V3 m ρ c main_v4_0) (V3 m ρ c main_v4_1) (V3 m ρ c main_v4_2) (V3 m ρ c main_v5) :=
  (W4_arr m ρ c 4).trans (attn_final (V3 m ρ) c)

/-- The third stretch reshapes it to 8192 rows and leaves the transposed output weight in place. -/
theorem entry2_rows (b : Fin 4) (s : Fin 2048) (e : Fin 1024) :
    (W5 m ρ c (Proc.devRef .tc main_v7) : S8192x1024.Idx → EReal) (ix2 (⟨b.val * 2048 + s.val, by have := b.isLt; have := s.isLt; omega⟩ : Fin 8192) e)
      = (W4 m ρ c (Proc.devRef .tc main_v6) : S4x2048x1024.Idx → EReal) (ix3 b s e) := by
  show (StableHlo.after hostOps2 (W4 m ρ c) (Proc.devRef .tc main_v7) : S8192x1024.Idx → EReal) _ = _
  after_results
  exact shapeCast_apply _ _ _ _ (by
    show (S4x2048x1024.rowMajor (ix3 b s e)).val
      = (S8192x1024.rowMajor (ix2 (⟨b.val * 2048 + s.val, by have := b.isLt; have := s.isLt; omega⟩ : Fin 8192) e)).val
    rw [Shape.rowMajor_val_two, Shape.rowMajor_val_three]
    rfl)
theorem entry2_weight : W5 m ρ c (Proc.devRef .tc main_v3) = W1 m ρ c (Proc.devRef .tc main_v3) := by
  have h5 : W5 m ρ c (Proc.devRef .tc main_v3) = W4 m ρ c (Proc.devRef .tc main_v3) := by
    show StableHlo.after hostOps2 (W4 m ρ c) (Proc.devRef .tc main_v3) = _
    after_results <;> rfl
  have h3 : W3 m ρ c (Proc.devRef .tc main_v3) = W2 m ρ c (Proc.devRef .tc main_v3) := by
    show StableHlo.after hostOps1 (W2 m ρ c) (Proc.devRef .tc main_v3) = _
    after_results <;> rfl
  exact h5.trans ((W4_of_ne m ρ c main_v3 (by decide)).trans (h3.trans (W2_of_ne m ρ c main_v3 (by decide))))

/-- The third region's output. -/
theorem exit2_out : W6 m ρ c (Proc.devRef .tc main_v8) = outArr (V5 m ρ c main_v7) (V5 m ρ c main_v3) :=
  (W6_arr m ρ c 2).trans (outproj_final (V5 m ρ) c)

/-- The last stretch reshapes it back. -/
theorem result_rows (b : Fin 4) (s : Fin 2048) (o : Fin 1024) :
    (W7 m ρ c (Proc.devRef .tc main_v9) : S4x2048x1024.Idx → EReal) (ix3 b s o)
      = (W6 m ρ c (Proc.devRef .tc main_v8) : S8192x1024.Idx → EReal)
          (ix2 (⟨b.val * 2048 + s.val, by have := b.isLt; have := s.isLt; omega⟩ : Fin 8192) o) := by
  show (StableHlo.after hostOps3 (W6 m ρ c) (Proc.devRef .tc main_v9) : S4x2048x1024.Idx → EReal) _ = _
  after_results
  exact shapeCast_apply _ _ _ _ (by
    show (S8192x1024.rowMajor (ix2 (⟨b.val * 2048 + s.val, by have := b.isLt; have := s.isLt; omega⟩ : Fin 8192) o)).val
      = (S4x2048x1024.rowMajor (ix3 b s o)).val
    rw [Shape.rowMajor_val_two, Shape.rowMajor_val_three]
    rfl)

/-! ## The mathematics -/

/-- A third of the projection at (b, s, e') is the specification's entry at the column that third starts from. -/
theorem projArr_eq_proj (off : ℕ) (hoff : off + 1024 ≤ 3072) (b : Fin 4) (s : Fin 2048) (e' : Fin 1024) (col : Fin 3072)
    (hcol : col.val = off + e'.val) :
    projArr off hoff (V1 m ρ c main_arg0) (V1 m ρ c main_v1) (ix3 b s e') = Cert.Attn.proj (argQ m c) (argWa m c) b s col := by
  unfold projArr Cert.Attn.proj
  refine Finset.sum_congr rfl fun d _ => ?_
  have hc : (⟨off + ((ix3 b s e' : S4x2048x1024.Idx) 2).val, by have h2 : e'.val < 1024 := e'.isLt; show off + e'.val < 3072; omega⟩ : Fin 3072) = col :=
    Fin.ext hcol.symm
  have e1 : (V1 m ρ c main_arg0 : S4x2048x1024.Idx → EReal) (ix3 b s d) = argQ m c (ix3 b s d) :=
    congrFun (entry0_input m ρ c) (ix3 b s d)
  have e2 : (V1 m ρ c main_v1 : S1024x3072.Idx → EReal) (ix2 d col) = argWa m c (ix2 col d) := entry0_weight m ρ c d col
  rw [hc]
  exact congrArg₂ (fun a b : EReal => a * b) e1 e2

/-- The third region's two inputs and its output, as arrays of extended reals. -/
abbrev flatRows : S8192x1024.Idx → EReal := V5 m ρ c main_v7
abbrev outWeightT : S1024x1024.Idx → EReal := V5 m ρ c main_v3
abbrev outRows : S8192x1024.Idx → EReal := W6 m ρ c (Proc.devRef .tc main_v8)
/-- The second region's inputs, as arrays of extended reals. -/
abbrev qArr : S4x2048x1024.Idx → EReal := V3 m ρ c main_v4_0
abbrev kArr : S4x2048x1024.Idx → EReal := V3 m ρ c main_v4_1

/-- The kernel's result buffer after the run is the specification's result with the scaling "times 1/8". -/
theorem fold_result :
    (W7 m ρ c (Proc.devRef .tc main_v9) : S4x2048x1024.Idx → EReal)
      = Cert.Attn.result (fun x => x * (Ideal.ofBits .f32 0x3E000000#32)) (Ideal.ofBits .f32 0xF49DC5AE#32) (Ideal.ofBits .f32 0xFF800000#32) (argQ m c) (argMask m c) (argWa m c) (argWo m c) := by
  funext i
  obtain ⟨b, s, o, rfl⟩ : ∃ (b : Fin 4) (s : Fin 2048) (o : Fin 1024), i = ix3 b s o := ⟨i 0, i 1, i 2, eq_ix3 i⟩
  have h1 := result_rows m ρ c b s o
  have h2 : outRows m ρ c (ix2 (⟨b.val * 2048 + s.val, by have := b.isLt; have := s.isLt; omega⟩ : Fin 8192) o)
      = ∑ e : Fin 1024, flatRows m ρ c (ix2 (⟨b.val * 2048 + s.val, by have := b.isLt; have := s.isLt; omega⟩ : Fin 8192) e)
          * outWeightT m ρ c (ix2 e o) :=
    congrFun (exit2_out m ρ c) _
  refine h1.trans (h2.trans ?_)
  show (∑ e : Fin 1024, flatRows m ρ c (ix2 (⟨b.val * 2048 + s.val, by have := b.isLt; have := s.isLt; omega⟩ : Fin 8192) e)
          * outWeightT m ρ c (ix2 e o))
    = ∑ e : Fin 1024, Cert.Attn.head (fun x => x * (Ideal.ofBits .f32 0x3E000000#32)) (Ideal.ofBits .f32 0xF49DC5AE#32) (Ideal.ofBits .f32 0xFF800000#32) (argQ m c) (argMask m c) (argWa m c) b s e
        * argWo m c (ix2 o e)
  refine Finset.sum_congr rfl fun e _ => ?_
  have hw : (V5 m ρ c main_v3 : S1024x1024.Idx → EReal) (ix2 e o) = argWo m c (ix2 o e) :=
    (congrFun (entry2_weight m ρ c) (ix2 e o)).trans (entry0_outweight m ρ c e o)
  have hx : (V5 m ρ c main_v7 : S8192x1024.Idx → EReal) (ix2 (⟨b.val * 2048 + s.val, by have := b.isLt; have := s.isLt; omega⟩ : Fin 8192) e)
      = Cert.Attn.head (fun x => x * (Ideal.ofBits .f32 0x3E000000#32)) (Ideal.ofBits .f32 0xF49DC5AE#32) (Ideal.ofBits .f32 0xFF800000#32) (argQ m c) (argMask m c) (argWa m c) b s e := by
    refine (entry2_rows m ρ c b s e).trans ?_
    rw [exit1_o]
    unfold attnArr Cert.Attn.head
    have hq : (V3 m ρ c main_v4_0 : S4x2048x1024.Idx → EReal) = projArr 0 (by omega) (V1 m ρ c main_arg0) (V1 m ρ c main_v1) :=
      (entry1_q m ρ c).trans (exit0_q m ρ c)
    have hk : (V3 m ρ c main_v4_1 : S4x2048x1024.Idx → EReal) = projArr 1024 (by omega) (V1 m ρ c main_arg0) (V1 m ρ c main_v1) :=
      (entry1_k m ρ c).trans (exit0_k m ρ c)
    have hv : (V3 m ρ c main_v4_2 : S4x2048x1024.Idx → EReal) = projArr 2048 (by omega) (V1 m ρ c main_arg0) (V1 m ρ c main_v1) :=
      (entry1_v m ρ c).trans (exit0_v m ρ c)
    refine softmaxRow_congr _ _ _ _ _ (fun kk => ?_) (fun kk => ?_)
    · unfold Cert.Attn.score
      have hbit : IntOp.cmpi .ne ((V3 m ρ c main_v5 : S4x2048x2048.Idx → BitVec 32) (ix3 b s kk)) 0#32 = argMask m c (ix3 b s kk) := by
        exact (congrArg (fun w : BitVec 32 => IntOp.cmpi .ne w 0#32) (entry1_mask m ρ c (ix3 b s kk))).trans (widened_ne_zero _)
      have hdot : ∀ d : Fin 64,
          qArr m ρ c (ix3 b s (hcol1024 e d)) * kArr m ρ c (ix3 b kk (hcol1024 e d))
          = Cert.Attn.proj (argQ m c) (argWa m c) b s (Cert.Attn.qcol e d)
            * Cert.Attn.proj (argQ m c) (argWa m c) b kk (Cert.Attn.kcol e d) := by
        intro d
        exact congrArg₂ (fun a b : EReal => a * b)
          ((congrFun hq _).trans (projArr_eq_proj m ρ c 0 (by omega) b s (hcol1024 e d) (Cert.Attn.qcol e d)
            (by show e.val / 64 * 64 + d.val = 0 + (e.val / 64 * 64 + d.val); omega)))
          ((congrFun hk _).trans (projArr_eq_proj m ρ c 1024 (by omega) b kk (hcol1024 e d) (Cert.Attn.kcol e d)
            (by show 1024 + (e.val / 64 * 64 + d.val) = 1024 + (e.val / 64 * 64 + d.val); rfl)))
      exact congrArg₂ (fun (w : BitVec 1) (x : EReal) => Scalar.select w (Ideal.ofBits .f32 0xF49DC5AE#32) (x * (Ideal.ofBits .f32 0x3E000000#32))) hbit
        (Finset.sum_congr rfl fun d _ => hdot d)
    · exact (congrFun hv _).trans
        (projArr_eq_proj m ρ c 2048 (by omega) b kk e (Cert.Attn.vcol e) (by show 2048 + e.val = 2048 + e.val; rfl))
  exact congrArg₂ (fun a b : EReal => a * b) hx hw

end Cert.KernelIdeal.Attn

end
-- ==== Proof.RefValue.lean ====
/-
  The reference program read entry by entry: its result is the attention function of the specification.

  The fused projection is read first (one dot product per entry), then its three column ranges after the
  reshape to sixteen heads of width 64 and the transposition that brings the head axis forward: entry
  (b, h, s, d) of the query tensor is column h * 64 + d of row (b, s) of the projection, the key tensor is
  1024 columns further and the value tensor 2048 columns further. With h = e / 64 and d = e % 64 for an
  output column e these are the specification's query, key and value columns. The scores, the mask, the
  row maximum, the exponentials, their row sum, the quotient, the product with the values and the output
  projection follow in the program's order.
-/
import proofs.«155274_j68135361184458_2_alg».proof.Proof.Gen.ReferenceIdeal.Read
import proofs.«155274_j68135361184458_2_alg».proof.Proof.AttnSpec
import Idealize.ShloMosaic.PureOps.Reduce
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx Cert.Attn

/-- The head of an output column. -/
def hd (e : Fin 1024) : Fin 16 := ⟨e.val / 64, by have := e.isLt; omega⟩
/-- The position of an output column inside its head. -/
def ld (e : Fin 1024) : Fin 64 := ⟨e.val % 64, by omega⟩

/-- An entry of the fused projection is the specification's. -/
theorem v0_at (x0 : (⟨S4x2048x1024, .f32⟩ : BufTy).Contents (Elt Ideal)) (x2 : (⟨S3072x1024, .f32⟩ : BufTy).Contents (Elt Ideal))
    (b : Fin 4) (s : Fin 2048) (e : Fin 3072) :
    val_main_v0 (F := Ideal) x0 x2 (ix3 b s e) = proj x0 x2 b s e := by
  rw [val_main_v0_apply]
  unfold proj
  refine Finset.sum_congr rfl fun d _ => ?_
  have el : lidx_main_v0 (ix3 b s e) d = ix3 b s d :=
    funext fun a => Fin.ext (by match a with | ⟨0, _⟩ => rfl | ⟨1, _⟩ => rfl | ⟨2, _⟩ => rfl)
  have er : ridx_main_v0 (ix3 b s e) d = ix2 e d :=
    funext fun a => Fin.ext (by match a with | ⟨0, _⟩ => rfl | ⟨1, _⟩ => rfl)
  rw [el, er]

/-- Where the reshape to heads followed by the transposition reads: entry (b, h, s, d) of the transposed tensor is
    entry (b, s, h * 64 + d) before the reshape. -/
theorem heads_idx (b : Fin 4) (h : Fin 16) (s : Fin 2048) (d : Fin 64) (hc : h.val * 64 + d.val < 1024) :
    idx_main_v4 (idx_main_v5 (ix4 b h s d)) = ix3 b s (⟨h.val * 64 + d.val, hc⟩ : Fin 1024) :=
  funext fun a => Fin.ext (by
    have := b.isLt; have := h.isLt; have := s.isLt; have := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega)

/-- The query tensor at (b, e / 64, s, d) is the projection's query column. -/
theorem v5_at (x0 : (⟨S4x2048x1024, .f32⟩ : BufTy).Contents (Elt Ideal)) (x2 : (⟨S3072x1024, .f32⟩ : BufTy).Contents (Elt Ideal))
    (b : Fin 4) (s : Fin 2048) (e : Fin 1024) (d : Fin 64) :
    val_main_v5 (F := Ideal) x0 x2 (ix4 b (hd e) s d) = proj x0 x2 b s (qcol e d) := by
  have hc : (hd e).val * 64 + d.val < 1024 := by have := e.isLt; have := d.isLt; show e.val / 64 * 64 + d.val < 1024; omega
  rw [val_main_v5_apply, val_main_v4_apply, heads_idx b (hd e) s d hc, val_main_v1_apply]
  have e1 : idx_main_v1 (ix3 b s (⟨(hd e).val * 64 + d.val, hc⟩ : Fin 1024)) = ix3 b s (qcol e d) :=
    funext fun a => Fin.ext (by match a with | ⟨0, _⟩ => rfl | ⟨1, _⟩ => rfl | ⟨2, _⟩ => rfl)
  rw [e1, v0_at]

/-- The key tensor at (b, e / 64, k, d) is the projection's key column. -/
theorem v7_at (x0 : (⟨S4x2048x1024, .f32⟩ : BufTy).Contents (Elt Ideal)) (x2 : (⟨S3072x1024, .f32⟩ : BufTy).Contents (Elt Ideal))
    (b : Fin 4) (k : Fin 2048) (e : Fin 1024) (d : Fin 64) :
    val_main_v7 (F := Ideal) x0 x2 (ix4 b (hd e) k d) = proj x0 x2 b k (kcol e d) := by
  have hc : (hd e).val * 64 + d.val < 1024 := by have := e.isLt; have := d.isLt; show e.val / 64 * 64 + d.val < 1024; omega
  rw [val_main_v7_apply, val_main_v6_apply]
  rw [show idx_main_v6 (idx_main_v7 (ix4 b (hd e) k d)) = ix3 b k (⟨(hd e).val * 64 + d.val, hc⟩ : Fin 1024) from heads_idx b (hd e) k d hc,
    val_main_v2_apply]
  have e1 : idx_main_v2 (ix3 b k (⟨(hd e).val * 64 + d.val, hc⟩ : Fin 1024)) = ix3 b k (kcol e d) :=
    funext fun a => Fin.ext (by match a with | ⟨0, _⟩ => rfl | ⟨1, _⟩ => rfl | ⟨2, _⟩ => rfl)
  rw [e1, v0_at]

/-- The value tensor at (b, e / 64, k, e % 64) is the projection's value column of e. -/
theorem v9_at (x0 : (⟨S4x2048x1024, .f32⟩ : BufTy).Contents (Elt Ideal)) (x2 : (⟨S3072x1024, .f32⟩ : BufTy).Contents (Elt Ideal))
    (b : Fin 4) (k : Fin 2048) (e : Fin 1024) :
    val_main_v9 (F := Ideal) x0 x2 (ix4 b (hd e) k (ld e)) = proj x0 x2 b k (vcol e) := by
  have hc : (hd e).val * 64 + (ld e).val < 1024 := by have := e.isLt; show e.val / 64 * 64 + e.val % 64 < 1024; omega
  rw [val_main_v9_apply, val_main_v8_apply]
  rw [show idx_main_v8 (idx_main_v9 (ix4 b (hd e) k (ld e))) = ix3 b k (⟨(hd e).val * 64 + (ld e).val, hc⟩ : Fin 1024) from heads_idx b (hd e) k (ld e) hc,
    val_main_v3_apply]
  have e1 : idx_main_v3 (ix3 b k (⟨(hd e).val * 64 + (ld e).val, hc⟩ : Fin 1024)) = ix3 b k (vcol e) :=
    funext fun a => Fin.ext (by
      match a with
      | ⟨0, _⟩ => rfl
      | ⟨1, _⟩ => rfl
      | ⟨2, _⟩ => show 2048 + (e.val / 64 * 64 + e.val % 64) = 2048 + e.val; omega)
  rw [e1, v0_at]

/-- The masked, scaled score: entry (b, e / 64, s, k) of the tensor after the select. -/
theorem v14_at (x0 : (⟨S4x2048x1024, .f32⟩ : BufTy).Contents (Elt Ideal)) (x1 : (⟨S4x2048x2048, .i1⟩ : BufTy).Contents (Elt Ideal))
    (x2 : (⟨S3072x1024, .f32⟩ : BufTy).Contents (Elt Ideal)) (b : Fin 4) (s : Fin 2048) (e : Fin 1024) (k : Fin 2048) :
    val_main_v14 (F := Ideal) x0 x1 x2 (ix4 b (hd e) s k)
      = score (fun x => Ideal.div x (Ideal.ofBits .f32 0x41000000#32)) (Ideal.ofBits .f32 0xF49DC5AE#32) x0 x1 x2 b s e k := by
  rw [val_main_v14_apply, val_main_call0_v0_apply, val_main_v13_apply, val_main_call0_v1_apply, val_main_cst_0_apply,
    val_main_v12_apply, val_main_v11_apply, val_main_cst_apply, val_main_v10_apply]
  have em : idx_main_v13 (idx_main_call0_v0 (ix4 b (hd e) s k)) = ix3 b s k :=
    funext fun a => Fin.ext (by match a with | ⟨0, _⟩ => rfl | ⟨1, _⟩ => rfl | ⟨2, _⟩ => rfl)
  have es : (∑ d : Fin 64, val_main_v5 (F := Ideal) x0 x2 (lidx_main_v10 (ix4 b (hd e) s k) d)
        * val_main_v7 (F := Ideal) x0 x2 (ridx_main_v10 (ix4 b (hd e) s k) d))
      = ∑ d : Fin 64, proj x0 x2 b s (qcol e d) * proj x0 x2 b k (kcol e d) :=
    Finset.sum_congr rfl fun d _ => by
      have el : lidx_main_v10 (ix4 b (hd e) s k) d = ix4 b (hd e) s d :=
        funext fun a => Fin.ext (by match a with | ⟨0, _⟩ => rfl | ⟨1, _⟩ => rfl | ⟨2, _⟩ => rfl | ⟨3, _⟩ => rfl)
      have er : ridx_main_v10 (ix4 b (hd e) s k) d = ix4 b (hd e) k d :=
        funext fun a => Fin.ext (by match a with | ⟨0, _⟩ => rfl | ⟨1, _⟩ => rfl | ⟨2, _⟩ => rfl | ⟨3, _⟩ => rfl)
      rw [el, er, v5_at, v7_at]
  rw [em, es]
  rfl

/-- The scaling of the reference: division by the literal 8. -/
abbrev scale8 : EReal → EReal := fun x => Ideal.div x (Ideal.ofBits .f32 0x41000000#32)
/-- The fill value of the reference. -/
abbrev fillv : EReal := Ideal.ofBits .f32 0xF49DC5AE#32
/-- The initial value of the row maximum. -/
abbrev neg : EReal := Ideal.ofBits .f32 0xFF800000#32

/-- The reduction by the maximum over the key axis is the fold of max over the row of scores. -/
theorem v15_at (x0 : (⟨S4x2048x1024, .f32⟩ : BufTy).Contents (Elt Ideal)) (x1 : (⟨S4x2048x2048, .i1⟩ : BufTy).Contents (Elt Ideal))
    (x2 : (⟨S3072x1024, .f32⟩ : BufTy).Contents (Elt Ideal)) (b : Fin 4) (s : Fin 2048) (e : Fin 1024) :
    val_main_v15 (F := Ideal) x0 x1 x2 (ix3 b (hd e) s)
      = Finset.univ.fold max neg (score scale8 fillv x0 x1 x2 b s e) := by
  have hR : S4x16x2048x2048.Reduces [3] S4x16x2048 := by decide
  unfold val_main_v15
  rw [Host.reduce_eq_fold_single FloatOps.maximumf _ _ reducesTo_S4x16x2048x2048_S4x16x2048_d3 hR h_S_]
  have hf : (val_main_v14 (F := Ideal) x0 x1 x2 ∘ hR.lift (ix3 b (hd e) s)) = score scale8 fillv x0 x1 x2 b s e :=
    funext fun (k : Fin 2048) => by
      have ek : hR.lift (ix3 b (hd e) s) k = ix4 b (hd e) s k :=
        funext fun a => Fin.ext (by match a with | ⟨0, _⟩ => rfl | ⟨1, _⟩ => rfl | ⟨2, _⟩ => rfl | ⟨3, _⟩ => rfl)
      show val_main_v14 (F := Ideal) x0 x1 x2 (hR.lift (ix3 b (hd e) s) k) = _
      rw [ek, v14_at]
  rw [hf]
  rfl

/-- The maximum with the initial value once more changes nothing: the fold already starts from it. -/
theorem v17_at (x0 : (⟨S4x2048x1024, .f32⟩ : BufTy).Contents (Elt Ideal)) (x1 : (⟨S4x2048x2048, .i1⟩ : BufTy).Contents (Elt Ideal))
    (x2 : (⟨S3072x1024, .f32⟩ : BufTy).Contents (Elt Ideal)) (b : Fin 4) (s : Fin 2048) (e : Fin 1024) :
    val_main_v17 (F := Ideal) x0 x1 x2 (ix3 b (hd e) s)
      = Finset.univ.fold max neg (score scale8 fillv x0 x1 x2 b s e) := by
  rw [val_main_v17_apply, val_main_v16_apply, val_main_cst_2_apply, v15_at]
  show max neg (Finset.univ.fold max neg (score scale8 fillv x0 x1 x2 b s e)) = _
  exact max_eq_right ((_root_.Finset.le_fold_max _).2 (Or.inl le_rfl))

/-- The exponential of a score less its row's maximum. -/
theorem v21_at (x0 : (⟨S4x2048x1024, .f32⟩ : BufTy).Contents (Elt Ideal)) (x1 : (⟨S4x2048x2048, .i1⟩ : BufTy).Contents (Elt Ideal))
    (x2 : (⟨S3072x1024, .f32⟩ : BufTy).Contents (Elt Ideal)) (b : Fin 4) (s : Fin 2048) (e : Fin 1024) (k : Fin 2048) :
    val_main_v21 (F := Ideal) x0 x1 x2 (ix4 b (hd e) s k)
      = Ideal.exp (score scale8 fillv x0 x1 x2 b s e k - Finset.univ.fold max neg (score scale8 fillv x0 x1 x2 b s e)) := by
  rw [val_main_v21_apply, val_main_v20_apply, val_main_v19_apply, val_main_v18_apply, v14_at]
  have ei : idx_main_v18 (idx_main_v19 (ix4 b (hd e) s k)) = ix3 b (hd e) s :=
    funext fun a => Fin.ext (by match a with | ⟨0, _⟩ => rfl | ⟨1, _⟩ => rfl | ⟨2, _⟩ => rfl)
  rw [ei, v17_at]
  rfl

/-- The row sum of the exponentials: the sum's initial value is the zero word. -/
theorem v22_at (x0 : (⟨S4x2048x1024, .f32⟩ : BufTy).Contents (Elt Ideal)) (x1 : (⟨S4x2048x2048, .i1⟩ : BufTy).Contents (Elt Ideal))
    (x2 : (⟨S3072x1024, .f32⟩ : BufTy).Contents (Elt Ideal)) (b : Fin 4) (s : Fin 2048) (e : Fin 1024) :
    val_main_v22 (F := Ideal) x0 x1 x2 (ix3 b (hd e) s)
      = ∑ k' : Fin 2048, Ideal.exp (score scale8 fillv x0 x1 x2 b s e k'
          - Finset.univ.fold max neg (score scale8 fillv x0 x1 x2 b s e)) := by
  rw [val_main_v22_apply, val_main_cst_3_apply]
  show Ideal.ofBits .f32 0x00000000#32 + _ = _
  rw [Ideal.ofBits_zero_f32, zero_add]
  refine Finset.sum_congr rfl fun k _ => ?_
  have ek : idx_main_v22 (ix3 b (hd e) s) k = ix4 b (hd e) s k :=
    funext fun a => Fin.ext (by match a with | ⟨0, _⟩ => rfl | ⟨1, _⟩ => rfl | ⟨2, _⟩ => rfl | ⟨3, _⟩ => rfl)
  rw [ek, v21_at]

/-- The softmax weight of key row k. -/
theorem v25_at (x0 : (⟨S4x2048x1024, .f32⟩ : BufTy).Contents (Elt Ideal)) (x1 : (⟨S4x2048x2048, .i1⟩ : BufTy).Contents (Elt Ideal))
    (x2 : (⟨S3072x1024, .f32⟩ : BufTy).Contents (Elt Ideal)) (b : Fin 4) (s : Fin 2048) (e : Fin 1024) (k : Fin 2048) :
    val_main_v25 (F := Ideal) x0 x1 x2 (ix4 b (hd e) s k)
      = Ideal.div (Ideal.exp (score scale8 fillv x0 x1 x2 b s e k - Finset.univ.fold max neg (score scale8 fillv x0 x1 x2 b s e)))
          (∑ k' : Fin 2048, Ideal.exp (score scale8 fillv x0 x1 x2 b s e k'
            - Finset.univ.fold max neg (score scale8 fillv x0 x1 x2 b s e))) := by
  rw [val_main_v25_apply, val_main_v24_apply, val_main_v23_apply, v21_at]
  have ei : idx_main_v23 (idx_main_v24 (ix4 b (hd e) s k)) = ix3 b (hd e) s :=
    funext fun a => Fin.ext (by match a with | ⟨0, _⟩ => rfl | ⟨1, _⟩ => rfl | ⟨2, _⟩ => rfl)
  rw [ei, v22_at]
  rfl

/-- Entry (b, s, e) after the transposition back and the reshape to width 1024 is the attention output of the
    specification: e splits as head e / 64 and position e % 64. -/
theorem v28_at (x0 : (⟨S4x2048x1024, .f32⟩ : BufTy).Contents (Elt Ideal)) (x1 : (⟨S4x2048x2048, .i1⟩ : BufTy).Contents (Elt Ideal))
    (x2 : (⟨S3072x1024, .f32⟩ : BufTy).Contents (Elt Ideal)) (b : Fin 4) (s : Fin 2048) (e : Fin 1024) :
    val_main_v28 (F := Ideal) x0 x1 x2 (ix3 b s e) = head scale8 fillv neg x0 x1 x2 b s e := by
  rw [val_main_v28_apply, val_main_v27_apply]
  have ei : idx_main_v27 (idx_main_v28 (ix3 b s e)) = ix4 b (hd e) s (ld e) :=
    funext fun a => Fin.ext (by
      have := b.isLt; have := s.isLt; have := e.isLt
      match a with
      | ⟨0, _⟩ => show ((b.val * 2048 + s.val) * 1024 + e.val) / 2097152 = b.val; omega
      | ⟨1, _⟩ => show ((b.val * 2048 + s.val) * 1024 + e.val) / 64 % 16 = e.val / 64; omega
      | ⟨2, _⟩ => show ((b.val * 2048 + s.val) * 1024 + e.val) / 1024 % 2048 = s.val; omega
      | ⟨3, _⟩ => show ((b.val * 2048 + s.val) * 1024 + e.val) % 64 = e.val % 64; omega)
  rw [ei, val_main_v26_apply]
  unfold head softmaxRow
  refine Finset.sum_congr rfl fun k _ => ?_
  have el : lidx_main_v26 (ix4 b (hd e) s (ld e)) k = ix4 b (hd e) s k :=
    funext fun a => Fin.ext (by match a with | ⟨0, _⟩ => rfl | ⟨1, _⟩ => rfl | ⟨2, _⟩ => rfl | ⟨3, _⟩ => rfl)
  have er : ridx_main_v26 (ix4 b (hd e) s (ld e)) k = ix4 b (hd e) k (ld e) :=
    funext fun a => Fin.ext (by match a with | ⟨0, _⟩ => rfl | ⟨1, _⟩ => rfl | ⟨2, _⟩ => rfl | ⟨3, _⟩ => rfl)
  rw [el, er, v25_at, v9_at]

/-- The stage that the program returns, as a function of the four argument arrays, is the specification's result. -/
theorem val_eq (x0 : (⟨S4x2048x1024, .f32⟩ : BufTy).Contents (Elt Ideal)) (x1 : (⟨S4x2048x2048, .i1⟩ : BufTy).Contents (Elt Ideal))
    (x2 : (⟨S3072x1024, .f32⟩ : BufTy).Contents (Elt Ideal)) (x3 : (⟨S1024x1024, .f32⟩ : BufTy).Contents (Elt Ideal)) :
    val_main_v29 (F := Ideal) x0 x1 x2 x3 = result scale8 fillv neg x0 x1 x2 x3 := by
  funext i
  obtain ⟨b, s, o, rfl⟩ : ∃ (b : Fin 4) (s : Fin 2048) (o : Fin 1024), i = ix3 b s o := ⟨i 0, i 1, i 2, eq_ix3 i⟩
  rw [val_main_v29_apply]
  show _ = ∑ e : Fin 1024, head scale8 fillv neg x0 x1 x2 b s e * x3 (ix2 o e)
  refine Finset.sum_congr rfl fun e _ => ?_
  have el : lidx_main_v29 (ix3 b s o) e = ix3 b s e :=
    funext fun a => Fin.ext (by match a with | ⟨0, _⟩ => rfl | ⟨1, _⟩ => rfl | ⟨2, _⟩ => rfl)
  have er : ridx_main_v29 (ix3 b s o) e = ix2 o e :=
    funext fun a => Fin.ext (by match a with | ⟨0, _⟩ => rfl | ⟨1, _⟩ => rfl)
  rw [el, er, v28_at]

/-- The reference's result is the attention function of its four arguments. -/
theorem res_eq (m : (ℓ : Loc nD τ sig) → Buf (Elt Ideal) ℓ) (c : Dev nD) :
    Cert.ReferenceIdeal.Value.res_main_v29 (F := Ideal) m c
      = Cert.Attn.result (fun x => Ideal.div x (Ideal.ofBits .f32 0x41000000#32))
          (Ideal.ofBits .f32 0xF49DC5AE#32) (Ideal.ofBits .f32 0xFF800000#32)
          (m ((c.tc : Thread nD τ).loc main_arg0)) (m ((c.tc : Thread nD τ).loc main_arg1))
          (m ((c.tc : Thread nD τ).loc main_arg2)) (m ((c.tc : Thread nD τ).loc main_arg3)) := by
  rw [val_main_v29_eq]
  exact val_eq _ _ _ _

end Cert.ReferenceIdeal.RefValue

end
-- ==== Proof.lean ====
/-
  Self-attention with a fused projection, computed by three pipelined regions, against its plain reference: the
  claims.

  Both programs compute, entry by entry on the extended reals, the same attention function of the four arguments
  (the specification module states it): the sums run over the same index sets in both, the two softmaxes subtract
  the same row maximum, and the only difference is that one program multiplies the 64-term dot products by the
  literal 1/8 where the other divides them by the literal 8 — one function on every extended real. No finiteness
  of the inputs is used for the equality.

  The kernel's run ends with its result buffer at the fold of its seven segments, which the kernel-side modules open
  region by region; the reference's run ends at the composed term of its operations, which the reference-side module
  reads entry by entry. The idealized kernel is the word-level kernel's text read at the ideal instance (the ideal
  pass rewrote nothing), so the preservation claim has no conjunct.
-/
import proofs.«155274_j68135361184458_2_alg».proof.Defs
import proofs.«155274_j68135361184458_2_alg».proof.Proof.Gen.Kernel
import proofs.«155274_j68135361184458_2_alg».proof.Proof.Gen.Kernel.Skeleton
import proofs.«155274_j68135361184458_2_alg».proof.Proof.Gen.Kernel.Launch
import proofs.«155274_j68135361184458_2_alg».proof.Proof.Gen.Kernel.Points
import proofs.«155274_j68135361184458_2_alg».proof.Proof.Gen.Kernel.Frame
import proofs.«155274_j68135361184458_2_alg».proof.Proof.Gen.KernelIdeal
import proofs.«155274_j68135361184458_2_alg».proof.Proof.Gen.KernelIdeal.Skeleton
import proofs.«155274_j68135361184458_2_alg».proof.Proof.Gen.KernelIdeal.Launch
import proofs.«155274_j68135361184458_2_alg».proof.Proof.Gen.KernelIdeal.Points
import proofs.«155274_j68135361184458_2_alg».proof.Proof.Gen.KernelIdeal.Frame
import proofs.«155274_j68135361184458_2_alg».proof.Proof.Gen.ReferenceIdeal
import proofs.«155274_j68135361184458_2_alg».proof.Proof.Gen.ReferenceIdeal.Run
import proofs.«155274_j68135361184458_2_alg».proof.Proof.Gen.ReferenceIdeal.Read
import proofs.«155274_j68135361184458_2_alg».proof.Proof.Gen.Pre_finite_inputs
import proofs.«155274_j68135361184458_2_alg».proof.Proof.AttnSpec
import proofs.«155274_j68135361184458_2_alg».proof.Proof.KernelRun
import proofs.«155274_j68135361184458_2_alg».proof.Proof.KernelValue
import proofs.«155274_j68135361184458_2_alg».proof.Proof.RefValue
import Idealize.ShloMosaic.Adequacy
import Idealize.ShloMosaic.Init

noncomputable section

namespace Cert.Proof

open Idealize.ShloMosaic Idealize.SL.Sem

/-- The attention function both programs compute, with the kernel's scaling, at the idealized kernel's arguments. -/
abbrev kernelResult (m : (ℓ : Loc Cert.KernelIdeal.nD Cert.KernelIdeal.τ Cert.KernelIdeal.sig) → Buf (Elt Ideal) ℓ)
    (c : Dev Cert.KernelIdeal.nD) : (⟨3, ![4, 2048, 1024]⟩ : Shape).Idx → EReal :=
  Cert.Attn.result (fun x => x * Ideal.ofBits .f32 0x3E000000#32) (Ideal.ofBits .f32 0xF49DC5AE#32)
    (Ideal.ofBits .f32 0xFF800000#32) (Cert.KernelIdeal.Attn.argQ m c) (Cert.KernelIdeal.Attn.argMask m c)
    (Cert.KernelIdeal.Attn.argWa m c) (Cert.KernelIdeal.Attn.argWo m c)

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run with the result dropped
    exact fun m ρ _ => (θ_run Cert.ReferenceIdeal.defs _ _).mono (fun _ h c => (h c).2)
      (Cert.ReferenceIdeal.Value.run (F := Ideal) m ρ)
  · -- both runs end at the attention function of arguments that agree
    intro m ρ m' ρ' _ hagree
    refine ⟨fun c => kernelResult m c, ?_, ?_⟩
    · exact (θ_run Cert.KernelIdeal.defs _ _).mono
        (fun r h c => ⟨(h c).1.trans (Cert.KernelIdeal.Attn.fold_result m ρ c), (h c).2⟩)
        (Cert.KernelIdeal.Attn.run_fold (F := Ideal) m ρ)
    · refine (θ_run Cert.ReferenceIdeal.defs _ _).mono (fun r h c => ⟨(h c).1.trans ?_, (h c).2⟩)
        (Cert.ReferenceIdeal.Value.run (F := Ideal) m' ρ')
      rw [Cert.ReferenceIdeal.RefValue.res_eq, (hagree c).1, (hagree c).2.1, (hagree c).2.2.1, (hagree c).2.2.2]
      exact (Cert.Attn.result_scale_eq _ _ _ _ _ _).symm⟩

end Cert.Proof

end
